-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x38x38x512 : Shape := ⟨4, ![1, 38, 38, 512]⟩
abbrev S256x4 : Shape := ⟨2, ![256, 4]⟩
abbrev S_ : Shape := ⟨0, ![]⟩

class Facts : Prop where
  bcast_S_S1x38x38x512 : S_.BroadcastsInDim S1x38x38x512 (![] : Fin 0 → Fin S1x38x38x512.rank)
  reducesTo_S1x38x38x512_S_d0_1_2_3 : S1x38x38x512.ReducesTo [0, 1, 2, 3] S_
  h_S_ : 0 < S_.numel
  bcast_S_S256x4 : S_.BroadcastsInDim S256x4 (![] : Fin 0 → Fin S256x4.rank)
  reducesTo_S256x4_S_d0_1 : S256x4.ReducesTo [0, 1] S_

variable [Facts]

def fn {F : FTy → Type} [FloatOps F] (main_arg0 : FVec F S1x38x38x512 .f32) (main_arg1 : FVec F S256x4 .f32) : IVec S_ 1 :=
  let main_v0 : FVec F S1x38x38x512 .f32 := Host.absf main_arg0
  let main_cst : FVec F S_ .f32 := constant S_ .f32 0x7F800000#32
  let main_v1 : FVec F S1x38x38x512 .f32 := broadcastInDim S1x38x38x512 ![] bcast_S_S1x38x38x512 main_cst
  let main_v2 : IVec S1x38x38x512 1 := cmpf .olt main_v0 main_v1
  let main_c : IVec S_ 1 := constantI S_ 1 1#1
  let main_v3 : IVec S_ 1 := (fun x v => Host.reduce IntOp.andi x v reducesTo_S1x38x38x512_S_d0_1_2_3 h_S_) main_v2 main_c
  let main_v4 : FVec F S256x4 .f32 := Host.absf main_arg1
  let main_cst_0 : FVec F S_ .f32 := constant S_ .f32 0x7F800000#32
  let main_v5 : FVec F S256x4 .f32 := broadcastInDim S256x4 ![] bcast_S_S256x4 main_cst_0
  let main_v6 : IVec S256x4 1 := cmpf .olt main_v4 main_v5
  let main_c_1 : IVec S_ 1 := constantI S_ 1 1#1
  let main_v7 : IVec S_ 1 := (fun x v => Host.reduce IntOp.andi x v reducesTo_S256x4_S_d0_1 h_S_) main_v6 main_c_1
  let main_v8 : IVec S_ 1 := andi main_v3 main_v7
  main_v8
-- ==== Kernel.lean ====
abbrev S1x38x38x512 : Shape := ⟨4, ![1, 38, 38, 512]⟩
abbrev S256x4 : Shape := ⟨2, ![256, 4]⟩
abbrev S256x1 : Shape := ⟨2, ![256, 1]⟩
abbrev S256 : Shape := ⟨1, ![256]⟩
abbrev S_ : Shape := ⟨0, ![]⟩
abbrev S256x512 : Shape := ⟨2, ![256, 512]⟩
abbrev S8x512 : Shape := ⟨2, ![8, 512]⟩
abbrev S38x38x512 : Shape := ⟨3, ![38, 38, 512]⟩
abbrev S1x1 : Shape := ⟨2, ![1, 1]⟩
abbrev S38x512 : Shape := ⟨2, ![38, 512]⟩
abbrev S512 : Shape := ⟨1, ![512]⟩
abbrev S1x512 : Shape := ⟨2, ![1, 512]⟩
abbrev S1x256x1x1x512 : Shape := ⟨5, ![1, 256, 1, 1, 512]⟩

abbrev nBuf : Space → Nat
  | .hbm => 34
  | .vmem => 3
  | .smem => 1
  | _ => 0

abbrev bufTy : (tb : Table) → Fin (tcTables nBuf tb) → BufTy
  | .hbm, ⟨0, _⟩ => ⟨S1x38x38x512, .f32⟩
  | .hbm, ⟨1, _⟩ => ⟨S256x4, .f32⟩
  | .hbm, ⟨2, _⟩ => ⟨S256x1, .f32⟩
  | .hbm, ⟨3, _⟩ => ⟨S256, .f32⟩
  | .hbm, ⟨4, _⟩ => ⟨S256x1, .f32⟩
  | .hbm, ⟨5, _⟩ => ⟨S256, .f32⟩
  | .hbm, ⟨6, _⟩ => ⟨S256x1, .f32⟩
  | .hbm, ⟨7, _⟩ => ⟨S256, .f32⟩
  | .hbm, ⟨8, _⟩ => ⟨S256x1, .f32⟩
  | .hbm, ⟨9, _⟩ => ⟨S256, .f32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256, .f32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .f32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S256x512, .f32⟩
  | .hbm, ⟨33, _⟩ => ⟨S1x256x1x1x512, .f32⟩
  | .local _ .vmem, ⟨0, _⟩ => ⟨S1x38x38x512, .f32⟩
  | .local _ .vmem, ⟨1, _⟩ => ⟨S8x512, .f32⟩
  | .local _ .vmem, ⟨2, _⟩ => ⟨S8x512, .f32⟩
  | .local _ .smem, ⟨0, _⟩ => ⟨S256x4, .i32⟩
  | _, _ => ⟨S1x38x38x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v27 : Ref sig .tc := ⟨.hbm, 32, rfl⟩
abbrev main_v28 : Ref sig .tc := ⟨.hbm, 33, rfl⟩
abbrev main_v26 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v26.idx], fun | 0 => main_v26.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c8_i32_3 : BitVec 32 := 8#32
  let v5 : BitVec 32 := Scalar.addi c0_i32 c8_i32_3
  let c1_i32 : BitVec 32 := 1#32
  ⟨c0_i32, v5, c1_i32⟩
def k0_off1 (i : grid0.Coords) (k0_t1 : Fin k0_t1_loop.trips) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let c1_i32 : BitVec 32 := 1#32
  let arg4 : BitVec 32 := Scf.iv c0_i32 c1_i32 k0_t1
  let v6 : BitVec 32 := Scalar.addi v0 arg4
  let v7 : Index := Scalar.indexCast v6
  let c0_5 : Index := 0#32
  ![v7.toNat, 0]
def k0_off2 (i : grid0.Coords) (k0_t1 : Fin k0_t1_loop.trips) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let c1_i32 : BitVec 32 := 1#32
  let arg4 : BitVec 32 := Scf.iv c0_i32 c1_i32 k0_t1
  let v6 : BitVec 32 := Scalar.addi v0 arg4
  let v9 : Index := Scalar.indexCast v6
  let c1 : Index := 1#32
  ![v9.toNat, 1]
def k0_off3 (i : grid0.Coords) (k0_t1 : Fin k0_t1_loop.trips) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let c1_i32 : BitVec 32 := 1#32
  let arg4 : BitVec 32 := Scf.iv c0_i32 c1_i32 k0_t1
  let v6 : BitVec 32 := Scalar.addi v0 arg4
  let v11 : Index := Scalar.indexCast v6
  let c2 : Index := 2#32
  ![v11.toNat, 2]
def k0_off4 (i : grid0.Coords) (k0_t1 : Fin k0_t1_loop.trips) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let c1_i32 : BitVec 32 := 1#32
  let arg4 : BitVec 32 := Scf.iv c0_i32 c1_i32 k0_t1
  let v6 : BitVec 32 := Scalar.addi v0 arg4
  let v13 : Index := Scalar.indexCast v6
  let c3 : Index := 3#32
  ![v13.toNat, 3]
def k0_off5 (k0_t1 : Fin k0_t1_loop.trips) : Fin 2 → Nat :=
  let c0_i32 : BitVec 32 := 0#32
  let c1_i32 : BitVec 32 := 1#32
  let arg4 : BitVec 32 := Scf.iv c0_i32 c1_i32 k0_t1
  let v30 : Index := Scalar.indexCast arg4
  let c0_8 : Index := 0#32
  ![v30.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x38x38x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S256x4_S256x1_0_0 : S256x4.Slices ![0, 0] S256x1
  shapeCasts_S256x1_S256 : S256x1.ShapeCasts S256
  slices_S256x4_S256x1_0_1 : S256x4.Slices ![0, 1] S256x1
  slices_S256x4_S256x1_0_2 : S256x4.Slices ![0, 2] S256x1
  slices_S256x4_S256x1_0_3 : S256x4.Slices ![0, 3] S256x1
  bcast_S_S256 : S_.BroadcastsInDim S256 (![] : Fin 0 → Fin S256.rank)
  bcast_S256_S256x1_0 : S256.BroadcastsInDim S256x1 (![0] : Fin 1 → Fin S256x1.rank)
  concatenates_S256x1_S256x1_S256x1_S256x1_S256x4_d1 : Shape.Concatenates [S256x1, S256x1, S256x1, S256x1] S256x4 1
  inb_S1x38x38x512_S1x38x38x512_0_0_0_0 : ∀ a, (![0, 0, 0, 0] : Fin 4 → Nat) a + S1x38x38x512.size a ≤ S1x38x38x512.size a
  h_S1x38x38x512 : 0 < S1x38x38x512.numel
  shapeCasts_S1x38x38x512_S38x38x512 : S1x38x38x512.ShapeCasts S38x38x512
  iota_S38x38x512_d0_w32 : S38x38x512.Iotas .tc 32 [0]
  iota_S38x38x512_d1_w32 : S38x38x512.Iotas .tc 32 [1]
  numel1_S1x1 : S1x1.numel = 1
  reduces_S38x38x512_S38x512 : S38x38x512.Reduces [1] S38x512
  reduces_S38x512_S512 : S38x512.Reduces [0] S512
  h_S1x512 : 0 < S1x512.numel
  shapeCasts_S1x512_S512 : S1x512.ShapeCasts S512
  shapeCasts_S512_S1x512 : S512.ShapeCasts S1x512
  shapeCasts_S256x512_S1x256x1x1x512 : S256x512.ShapeCasts S1x256x1x1x512
  hrank0 : 0 < grid0.rank
  k0_t1_ok : k0_t1_loop.OK
  k0_off1_inb : ∀ (i : grid0.Coords) (k0_t1 : Fin k0_t1_loop.trips), ∀ a, (k0_off1 i k0_t1) a + S1x1.size a ≤ S256x4.size a
  k0_off2_inb : ∀ (i : grid0.Coords) (k0_t1 : Fin k0_t1_loop.trips), ∀ a, (k0_off2 i k0_t1) a + S1x1.size a ≤ S256x4.size a
  k0_off3_inb : ∀ (i : grid0.Coords) (k0_t1 : Fin k0_t1_loop.trips), ∀ a, (k0_off3 i k0_t1) a + S1x1.size a ≤ S256x4.size a
  k0_off4_inb : ∀ (i : grid0.Coords) (k0_t1 : Fin k0_t1_loop.trips), ∀ a, (k0_off4 i k0_t1) a + S1x1.size a ≤ S256x4.size a
  k0_off5_inb : ∀ k0_t1 : Fin k0_t1_loop.trips, ∀ a, (k0_off5 k0_t1) a + S1x512.size a ≤ S8x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x38x38x512.size a ≤ S1x38x38x512.size a
  hwx0_0 : ∀ i : grid0.Coords, EltTy.bits .f32 = 32 ∨ (Rect.block (s := S1x38x38x512) S1x38x38x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S256x512.size a
  hwx0_1 : ∀ i : grid0.Coords, EltTy.bits .f32 = 32 ∨ (Rect.block (s := S256x512) S8x512.size (cc0_transform_1 i) (hinb0_1 i)).WholeWords (EltTy.packing .f32)

variable [Facts₀]

abbrev spec0_0 : Pipeline.WinSpec sig grid0.rank :=
  Pipeline.WinSpec.ofSpec (Memref.whole main_arg0) S1x38x38x512.size reads0_0 false true 1 stage0_0 sem0_0 nbuf0_0 hstage0_0

abbrev spec0_1 : Pipeline.WinSpec sig grid0.rank :=
  Pipeline.WinSpec.ofSpec (Memref.whole main_v27) S8x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S1x38x38x512 : Shape := ⟨4, ![1, 38, 38, 512]⟩
abbrev S256x4 : Shape := ⟨2, ![256, 4]⟩
abbrev S256x1 : Shape := ⟨2, ![256, 1]⟩
abbrev S256 : Shape := ⟨1, ![256]⟩
abbrev S_ : Shape := ⟨0, ![]⟩
abbrev S38 : Shape := ⟨1, ![38]⟩
abbrev S1x38 : Shape := ⟨2, ![1, 38]⟩
abbrev S256x38 : Shape := ⟨2, ![256, 38]⟩
abbrev S256x38x1 : Shape := ⟨3, ![256, 38, 1]⟩
abbrev S256x1x38 : Shape := ⟨3, ![256, 1, 38]⟩
abbrev S256x38x38 : Shape := ⟨3, ![256, 38, 38]⟩
abbrev S256x38x38x1 : Shape := ⟨4, ![256, 38, 38, 1]⟩
abbrev S38x38x512 : Shape := ⟨3, ![38, 38, 512]⟩
abbrev S256x38x38x512 : Shape := ⟨4, ![256, 38, 38, 512]⟩
abbrev S256x512 : Shape := ⟨2, ![256, 512]⟩
abbrev S1x256x1x1x512 : Shape := ⟨5, ![1, 256, 1, 1, 512]⟩

abbrev nBuf : Space → Nat
  | .hbm => 68
  | .vmem => 0
  | .smem => 0
  | _ => 0

abbrev bufTy : (tb : Table) → Fin (tcTables nBuf tb) → BufTy
  | .hbm, ⟨0, _⟩ => ⟨S1x38x38x512, .f32⟩
  | .hbm, ⟨1, _⟩ => ⟨S256x4, .f32⟩
  | .hbm, ⟨2, _⟩ => ⟨S256x1, .f32⟩
  | .hbm, ⟨3, _⟩ => ⟨S256, .f32⟩
  | .hbm, ⟨4, _⟩ => ⟨S256x1, .f32⟩
  | .hbm, ⟨5, _⟩ => ⟨S256, .f32⟩
  | .hbm, ⟨6, _⟩ => ⟨S256x1, .f32⟩
  | .hbm, ⟨7, _⟩ => ⟨S256, .f32⟩
  | .hbm, ⟨8, _⟩ => ⟨S256x1, .f32⟩
  | .hbm, ⟨9, _⟩ => ⟨S256, .f32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S256, .f32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .f32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S38, .i32⟩
  | .hbm, ⟨29, _⟩ => ⟨S38, .i32⟩
  | .hbm, ⟨30, _⟩ => ⟨S1x38, .i32⟩
  | .hbm, ⟨31, _⟩ => ⟨S256x1, .i32⟩
  | .hbm, ⟨32, _⟩ => ⟨S256x38, .i32⟩
  | .hbm, ⟨33, _⟩ => ⟨S256x38, .i32⟩
  | .hbm, ⟨34, _⟩ => ⟨S256x38, .i1⟩
  | .hbm, ⟨35, _⟩ => ⟨S1x38, .i32⟩
  | .hbm, ⟨36, _⟩ => ⟨S256x1, .i32⟩
  | .hbm, ⟨37, _⟩ => ⟨S256x38, .i32⟩
  | .hbm, ⟨38, _⟩ => ⟨S256x38, .i32⟩
  | .hbm, ⟨39, _⟩ => ⟨S256x38, .i1⟩
  | .hbm, ⟨40, _⟩ => ⟨S256x38, .i1⟩
  | .hbm, ⟨41, _⟩ => ⟨S1x38, .i32⟩
  | .hbm, ⟨42, _⟩ => ⟨S256x1, .i32⟩
  | .hbm, ⟨43, _⟩ => ⟨S256x38, .i32⟩
  | .hbm, ⟨44, _⟩ => ⟨S256x38, .i32⟩
  | .hbm, ⟨45, _⟩ => ⟨S256x38, .i1⟩
  | .hbm, ⟨46, _⟩ => ⟨S1x38, .i32⟩
  | .hbm, ⟨47, _⟩ => ⟨S256x1, .i32⟩
  | .hbm, ⟨48, _⟩ => ⟨S256x38, .i32⟩
  | .hbm, ⟨49, _⟩ => ⟨S256x38, .i32⟩
  | .hbm, ⟨50, _⟩ => ⟨S256x38, .i1⟩
  | .hbm, ⟨51, _⟩ => ⟨S256x38, .i1⟩
  | .hbm, ⟨52, _⟩ => ⟨S256x38x1, .i1⟩
  | .hbm, ⟨53, _⟩ => ⟨S256x1x38, .i1⟩
  | .hbm, ⟨54, _⟩ => ⟨S256x38x38, .i1⟩
  | .hbm, ⟨55, _⟩ => ⟨S256x38x38, .i1⟩
  | .hbm, ⟨56, _⟩ => ⟨S256x38x38, .i1⟩
  | .hbm, ⟨57, _⟩ => ⟨S256x38x38x1, .i1⟩
  | .hbm, ⟨58, _⟩ => ⟨S38x38x512, .f32⟩
  | .hbm, ⟨59, _⟩ => ⟨S1x38x38x512, .f32⟩
  | .hbm, ⟨60, _⟩ => ⟨S_, .f32⟩
  | .hbm, ⟨61, _⟩ => ⟨S256x38x38x512, .i1⟩
  | .hbm, ⟨62, _⟩ => ⟨S256x38x38x512, .f32⟩
  | .hbm, ⟨63, _⟩ => ⟨S256x38x38x512, .f32⟩
  | .hbm, ⟨64, _⟩ => ⟨S256x38x38x512, .f32⟩
  | .hbm, ⟨65, _⟩ => ⟨S_, .f32⟩
  | .hbm, ⟨66, _⟩ => ⟨S256x512, .f32⟩
  | .hbm, ⟨67, _⟩ => ⟨S1x256x1x1x512, .f32⟩
  | _, _ => ⟨S1x38x38x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v54 : Ref sig .tc := ⟨.hbm, 64, rfl⟩
abbrev main_cst_3 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]

class Facts₀ : Prop where
  slices_S256x4_S256x1_0_0 : S256x4.Slices ![0, 0] S256x1
  shapeCasts_S256x1_S256 : S256x1.ShapeCasts S256
  slices_S256x4_S256x1_0_1 : S256x4.Slices ![0, 1] S256x1
  slices_S256x4_S256x1_0_2 : S256x4.Slices ![0, 2] S256x1
  slices_S256x4_S256x1_0_3 : S256x4.Slices ![0, 3] S256x1
  bcast_S_S256 : S_.BroadcastsInDim S256 (![] : Fin 0 → Fin S256.rank)
  bcast_S38_S1x38_1 : S38.BroadcastsInDim S1x38 (![1] : Fin 1 → Fin S1x38.rank)
  bcast_S256_S256x1_0 : S256.BroadcastsInDim S256x1 (![0] : Fin 1 → Fin S256x1.rank)
  bcast_S1x38_S256x38_0_1 : S1x38.BroadcastsInDim S256x38 (![0, 1] : Fin 2 → Fin S256x38.rank)
  bcast_S256x1_S256x38_0_1 : S256x1.BroadcastsInDim S256x38 (![0, 1] : Fin 2 → Fin S256x38.rank)
  bcast_S256x38_S256x38x1_0_1 : S256x38.BroadcastsInDim S256x38x1 (![0, 1] : Fin 2 → Fin S256x38x1.rank)
  bcast_S256x38_S256x1x38_0_2 : S256x38.BroadcastsInDim S256x1x38 (![0, 2] : Fin 2 → Fin S256x1x38.rank)
  bcast_S256x38x1_S256x38x38_0_1_2 : S256x38x1.BroadcastsInDim S256x38x38 (![0, 1, 2] : Fin 3 → Fin S256x38x38.rank)
  bcast_S256x1x38_S256x38x38_0_1_2 : S256x1x38.BroadcastsInDim S256x38x38 (![0, 1, 2] : Fin 3 → Fin S256x38x38.rank)
  bcast_S256x38x38_S256x38x38x1_0_1_2 : S256x38x38.BroadcastsInDim S256x38x38x1 (![0, 1, 2] : Fin 3 → Fin S256x38x38x1.rank)
  shapeCasts_S1x38x38x512_S38x38x512 : S1x38x38x512.ShapeCasts S38x38x512
  bcast_S38x38x512_S1x38x38x512_1_2_3 : S38x38x512.BroadcastsInDim S1x38x38x512 (![1, 2, 3] : Fin 3 → Fin S1x38x38x512.rank)
  bcast_S256x38x38x1_S256x38x38x512_0_1_2_3 : S256x38x38x1.BroadcastsInDim S256x38x38x512 (![0, 1, 2, 3] : Fin 4 → Fin S256x38x38x512.rank)
  bcast_S1x38x38x512_S256x38x38x512_0_1_2_3 : S1x38x38x512.BroadcastsInDim S256x38x38x512 (![0, 1, 2, 3] : Fin 4 → Fin S256x38x38x512.rank)
  bcast_S_S256x38x38x512 : S_.BroadcastsInDim S256x38x38x512 (![] : Fin 0 → Fin S256x38x38x512.rank)
  reducesTo_S256x38x38x512_S256x512_d1_2 : S256x38x38x512.ReducesTo [1, 2] S256x512
  h_S_ : 0 < S_.numel
  shapeCasts_S256x512_S1x256x1x1x512 : S256x512.ShapeCasts S1x256x1x1x512

variable [Facts₀]

class Facts : Prop extends Facts₀ where

variable [Facts]
-- ==== Proof.KernelKit.lean ====
/-
  The launch side of the frame, for any float instance.

  @main is thirty-one host operations (the four clamped box corners of every ROI, laid side by side as a
  256 × 4 table of words), the kernel's region with that table prefetched into scalar memory, and one host
  reshape of the region's result.  This module reduces @main to the region continued by the reshape, holding every
  buffer at what the earlier operations left (`V`), and names what the region is launched with: the table's
  contents, the two windows' staging buffers at a grid point, the image window's block.
-/
import proofs.«149995_j90778428768349_2_alg».proof.Proof.Gen.Kernel.Launch
import proofs.«149995_j90778428768349_2_alg».proof.Proof.Gen.Kernel.Skeleton
import proofs.«149995_j90778428768349_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host operations that come before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host operations, the region, the reshape: it reduces to the region continued by the reshape,
    the buffers held at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The reshape touches the region's result and its own result: neither is the prefetched table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro k
  fin_cases k
  rw [StableHlo.reshape_bufs]
  simp only [Finset.mem_insert, Finset.mem_singleton, not_or]
  exact ⟨StableHlo.devRef_ne_of_ne (by decide), StableHlo.devRef_ne_of_ne (by decide)⟩
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes neither the image nor the region's result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The arguments are written by no host operation -/

/-- No operation before the region writes the image: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the ROIs. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The prefetched table -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so every contents of it is admissible. -/
theorem ok_tbl : ok0 (F := F) (tbl m) := by unfold ok0; trivial
abbrev adm : (pcfg0 (F := F)).Adm := ⟨tbl m, ok_tbl m⟩
abbrev cfgM : Pipeline.Cfg sig Λ₀ := cfg0 (adm m)

/-- The table as the body is handed it: its whole buffer in scalar memory, at half the full share (read only). -/
abbrev tbM : Memref sig .tc .smem S256x4 .i32 := Memref.whole main_v26
abbrev htbM : tbM.IsWhole := Memref.isWhole_whole _
abbrev TbBuf (c : Dev nD) : Type := Buf (Elt F) (tbM.view.loc (c : Thread nD τ))
abbrev tbPt (c : Dev nD) (f : TbBuf (F := F) c) : sProp 𝕄 :=
  tbM.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The windows at a grid point -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The image window's staging buffer holds the image at every point, fetched there or not, for any proof data whose
    array is the region-entry image and whose body leaves the buffer as it found it. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The output window is written back at every point. -/
theorem flush0_1 : ∀ t : Fin (cfgM m).N, ((cfgM m).win 1).flush t = true :=
  (by decide +kernel : ∀ t : Fin grid0.N, Pipeline.Window.flushOf grid0 true cc0_transform_1 t = true)

/-- Each window's current staging memref at point `t`, and its wholeness. -/
abbrev ms0_0 (t : Fin (cfgM m).N) : Memref sig .tc .vmem S1x38x38x512 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S8x512 .f32 := spec0_1.stage ((cfgM m).slots t 1)
abbrev hs0_1 (t : Fin (cfgM m).N) : (ms0_1 m t).IsWhole := hstage0_1 (((cfgM m).slots t 1).cast nbuf0_1)

/-- The kernel body at point `t`, on what the pipeline calls it with. -/
abbrev bodyAt (t : Fin (cfgM m).N) : Prog (TpuEff nD τ sig (Elt F) Λ₀ .tc) PUnit :=
  cc0_roi_pool_kernel (grid0.coords t) tbM htbM (ms0_0 m t) (hs0_0 m t) (ms0_1 m t) (hs0_1 m t)

/-! ## The frame claim's post from the frame run's -/

/-- The reshape after the region does not write the ROIs, and they are no array of the pipeline. -/
theorem W_main_arg1 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- From a frame run to the frame claim: the image is an input window's array, kept by the pipeline; the ROIs bypass the
    region and no host operation writes them. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (Pipeline.afterTail pcfgs (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (W_main_arg1 m dats c)⟩) h

end Cert.Kernel.Fr

end
-- ==== Proof.KernelBody.lean ====
/-
  The kernel's body at one grid point, for any float instance.

  The body loads the whole image once and then, for k = 0 … 7, reads the four box corners of ROI 8·i + k from the
  prefetched table and stores one row of 512 pooled values into row k of the output block.  The counted loop is
  taken by its invariant: before trip k the output buffer holds the rows of the trips before k written over whatever
  it held, the rows listed as equal-sized tiles that the row axis keeps apart.  So after the loop row k of the block
  is the payload of trip k, a function of the image and of the table's row 8·i + k alone.
-/
import proofs.«149995_j90778428768349_2_alg».proof.Proof.KernelKit
import Idealize.ShloMosaic.Lib.WritesUnit

set_option maxRecDepth 16384
set_option maxHeartbeats 4000000

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip -/

/-- What a trip holds: the table at half share (read only) and the output block's buffer. -/
abbrev TripRes (c : Dev nD) (arg3 : Memref sig .tc .vmem S8x512 .f32) (X : TbBuf (F := F) c) (f : BufTy.Contents (Elt F) arg3.view.ty) : sProp 𝕄 :=
  iprop(tbPt c X ∗ (arg3.view.loc (c : Thread nD τ) ↦[arg3.view.set]{fullShare} f))

/-- One trip at a symbolic `k`: it leaves the table as it was and one more piece written into the output buffer. -/
def tripRun (𝒱 : Variants) (c : Dev nD) (bd : Option 𝒱.V) (i : grid0.Coords) (arg2 : Memref sig .tc .vmem S1x38x38x512 .f32) (harg2 : arg2.IsWhole) (arg3 : Memref sig .tc .vmem S8x512 .f32) (harg3 : arg3.IsWhole) (v1 : Vec F S1x38x38x512 .f32) (X : TbBuf (F := F) c) (k : Fin k0_t1_loop.trips) :
    { L : List (View.Piece (Elt F) S8x512 .f32) // ∀ (E : Set ℕ) (f : BufTy.Contents (Elt F) arg3.view.ty),
      TripRes (F := F) c arg3 X f
      ⊢ wp frame (wpE (defs₀ (F := F)) 𝒱 (c : Thread nD τ) bd) E (k0_t1_body (F := F) i tbM htbM arg2 harg2 arg3 harg3 v1 k PUnit.unit)
          (fun _ => TripRes (F := F) c arg3 X (arg3.view.writes (Elt F) f L)) } := by
  have hk : k.val < 8 := Nat.lt_of_lt_of_le k.isLt k0_t1_abs.2.1
  refine ⟨?_, fun E f => ?run⟩
  case run =>
    unfold k0_t1_body
    iintro ⟨HR, HW⟩
    sl_exec
    sl_step
    sl_close

/-- The row of pooled values trip `k` stores: the body's arithmetic on the image and the four words the trip read. -/
def rowPay (c : Dev nD) (i : grid0.Coords) (v1 : Vec F S1x38x38x512 .f32) (X : TbBuf (F := F) c) (k : Fin k0_t1_loop.trips) :
    (⟨S8x512.rank, S1x512.size⟩ : Shape).Idx → Elt F .f32 :=
  k0_pay1 v1 (tripRun.sl.r c i X k) (tripRun.sl.r_1 c i X k) (tripRun.sl.r_2 c i X k) (tripRun.sl.r_3 c i X k)

/-- The trip writes exactly that row, through row `k` of the buffer. -/
theorem tripL_eq (𝒱 : Variants) (c : Dev nD) (bd : Option 𝒱.V) (i : grid0.Coords) (arg2 : Memref sig .tc .vmem S1x38x38x512 .f32) (harg2 : arg2.IsWhole) (arg3 : Memref sig .tc .vmem S8x512 .f32) (harg3 : arg3.IsWhole) (v1 : Vec F S1x38x38x512 .f32) (X : TbBuf (F := F) c) (k : Fin k0_t1_loop.trips) :
    (tripRun 𝒱 c bd i arg2 harg2 arg3 harg3 v1 X k).1 = [⟨Rect.unit (k0_off5 k) S1x512.size (k0_off5_inb k), rowPay c i v1 X k⟩] := rfl

/-! ## The rows of the trips before `k` -/

/-- The pieces of the trips before `k`, newest first: equal-sized row tiles. -/
def rowsBefore (c : Dev nD) (i : grid0.Coords) (v1 : Vec F S1x38x38x512 .f32) (X : TbBuf (F := F) c) (k : ℕ) : List (View.Piece (Elt F) S8x512 .f32) :=
  if h : k ≤ k0_t1_loop.trips then
    View.tilePieces (s := S8x512) S1x512.size (fun j => k0_off5 j) (fun j => k0_off5_inb j) (rowPay c i v1 X) k h
  else []

theorem rowsBefore_succ (c : Dev nD) (i : grid0.Coords) (v1 : Vec F S1x38x38x512 .f32) (X : TbBuf (F := F) c) (k : Fin k0_t1_loop.trips) :
    rowsBefore c i v1 X (k.val + 1)
      = ⟨Rect.unit (k0_off5 k) S1x512.size (k0_off5_inb k), rowPay c i v1 X k⟩ :: rowsBefore c i v1 X k.val := by
  unfold rowsBefore
  rw [dif_pos (Nat.succ_le_of_lt k.isLt), dif_pos (Nat.le_of_lt k.isLt), View.tilePieces_succ]

/-! ## The loop by its invariant -/

/-- Before trip `k`: the table as it was; the output buffer holding the rows of the trips before `k` over its contents
    at loop entry. -/
abbrev rowsInv (𝒱 : Variants) (c : Dev nD) (bd : Option 𝒱.V) (i : grid0.Coords) (arg3 : Memref sig .tc .vmem S8x512 .f32) (v1 : Vec F S1x38x38x512 .f32) (X : TbBuf (F := F) c) (G : BufTy.Contents (Elt F) arg3.view.ty) (k : ℕ) (_u : PUnit) : sProp 𝕄 :=
  iprop(tbPt c X ∗ (∃ f, (arg3.view.loc (c : Thread nD τ) ↦[arg3.view.set]{fullShare} f) ∗ ⌜f = arg3.view.writes (Elt F) G (rowsBefore c i v1 X k)⌝))

set_option warn.classDefReducibility false in
@[sl_loop] def rowsLoop (𝒱 : Variants) (c : Dev nD) (bd : Option 𝒱.V) (E : Set ℕ) (i : grid0.Coords) (arg2 : Memref sig .tc .vmem S1x38x38x512 .f32) (harg2 : arg2.IsWhole) (arg3 : Memref sig .tc .vmem S8x512 .f32) (harg3 : arg3.IsWhole) (v1 : Vec F S1x38x38x512 .f32) (X : TbBuf (F := F) c) (G : BufTy.Contents (Elt F) arg3.view.ty) :
    LoopInvTy_k0_t1 (F := F) Unit ℕ (UR sig nD τ) ℕ 𝒱 c bd E i tbM htbM arg2 harg2 arg3 harg3 v1 where
  inv := rowsInv (F := F) 𝒱 c bd i arg3 v1 X G
  step k acc := by
    iintro ⟨HR, ⟨%f3, HW, %h3⟩⟩
    iapply (wp_wand_r Idealize.ShloMosaic.frame (wpE (defs₀ (F := F)) 𝒱 (c : Thread nD τ) bd) E)
    isplitl [HR HW]
    · iapply ((tripRun (F := F) 𝒱 c bd i arg2 harg2 arg3 harg3 v1 X k).2 E f3)
      isplitl [HR]; · iexact HR
      iexact HW
    · iintro %_ ⟨HR, HW⟩
      isplitl [HR]; · iexact HR
      rw [rowsBefore_succ]
      iexists _; isplitl [HW]; · iexact HW
      ipureintro; rw [h3, tripL_eq]; rfl

/-! ## What the body leaves in the output block -/

/-- The loop makes eight trips. -/
theorem trips_eq : k0_t1_loop.trips = 8 := by decide +kernel

/-- A row of the output block is the number of a trip. -/
theorem row_lt (y : S8x512.Idx) : (y 0).val < k0_t1_loop.trips := by
  rw [trips_eq]; exact (y 0).isLt

/-- The image as the body's one load returns it, from a staging memref holding `x0`. -/
abbrev imgLoaded (arg2 : Memref sig .tc .vmem S1x38x38x512 .f32) (harg2 : arg2.IsWhole) (x0 : Vec F S1x38x38x512 .f32) : Vec F S1x38x38x512 .f32 :=
  View.readAt (Elt F) arg2.view (Rect.unit (s := S1x38x38x512) ![0, 0, 0, 0] S1x38x38x512.size inb_S1x38x38x512_S1x38x38x512_0_0_0_0).toLoadRect (harg2.unread x0)

/-- Column `y 1` of a one-row tile. -/
abbrev inRow (y : S8x512.Idx) : (⟨S8x512.rank, S1x512.size⟩ : Shape).Idx := fun a => match a with
  | ⟨0, _⟩ => ⟨0, Nat.one_pos⟩
  | ⟨1, _⟩ => ⟨(y 1).val, (y 1).isLt⟩

/-- The output block after the loop: row `y 0` is what trip `y 0` stored. -/
def blockOf (c : Dev nD) (i : grid0.Coords) (v1 : Vec F S1x38x38x512 .f32) (xt : TbBuf (F := F) c) : Vec F S8x512 .f32 :=
  fun y => rowPay c i v1 xt ⟨(y 0).val, row_lt y⟩ (inRow y)

/-- Eight row stores, one per row, read back: whatever the buffer held, it now holds the block. -/
theorem read_rows (c : Dev nD) (i : grid0.Coords) (arg3 : Memref sig .tc .vmem S8x512 .f32) (v1 : Vec F S1x38x38x512 .f32) (xt : TbBuf (F := F) c)
    (f : BufTy.Contents (Elt F) arg3.view.ty) :
    arg3.view.read (Elt F) (arg3.view.writes (Elt F) f (rowsBefore c i v1 xt k0_t1_loop.trips)) = blockOf c i v1 xt := by
  funext y
  unfold rowsBefore blockOf
  rw [dif_pos le_rfl]
  refine View.read_tilePieces arg3.view f S1x512.size (fun j => k0_off5 j) (fun j => k0_off5_inb j) (rowPay c i v1 xt)
    k0_t1_loop.trips le_rfl y ⟨(y 0).val, row_lt y⟩ (row_lt y) (inRow y) ?_ (0 : Fin 2) ?_
  · intro a
    show (y a).val = k0_off5 _ a + (inRow y a).val
    rw [k0_off5_eq]
    match a with
    | ⟨0, _⟩ => show (y 0).val = (y 0).val + 0; omega
    | ⟨1, _⟩ => show (y 1).val = 0 + (y 1).val; omega
  · intro j hj
    show (y 0).val < k0_off5 j 0 ∨ k0_off5 j 0 + S1x512.size 0 ≤ (y 0).val
    rw [k0_off5_eq]
    have hne : j.val ≠ (y 0).val := fun h => hj (Fin.ext h)
    show (y 0).val < j.val ∨ j.val + 1 ≤ (y 0).val
    omega

/-! ## The body's triple -/

/-- The body on whole staging memrefs — the image's at `x0`, the output's at anything, the table at half share — runs to
    the continuation holding the image's and the table as they were and the output's at the block. -/
theorem sound_kernel (c : Dev nD) (E : Set ℕ) (i : grid0.Coords) (arg2 : Memref sig .tc .vmem S1x38x38x512 .f32) (harg2 : arg2.IsWhole) (arg3 : Memref sig .tc .vmem S8x512 .f32) (harg3 : arg3.IsWhole)
    (x0 : Vec F S1x38x38x512 .f32) (xt : TbBuf (F := F) c) (K : PUnit → sProp 𝕄) :
    iprop(owns (c : Thread nD τ) arg2 fullShare x0 ∗ (∃ d, owns (c : Thread nD τ) arg3 fullShare d) ∗ tbPt c xt
        ∗ (iprop(owns (c : Thread nD τ) arg2 fullShare x0 ∗ owns (c : Thread nD τ) arg3 fullShare (blockOf c i (imgLoaded arg2 harg2 x0) xt) ∗ tbPt c xt) -∗ K ⟨⟩))
      ⊢ wp frame (wpE (defs₀ (F := F)) Variants.none c none) E (cc0_roi_pool_kernel i tbM htbM arg2 harg2 arg3 harg3) K := by
  simp only [cc0_roi_pool_kernel_eq_skeleton]; unfold cc0_roi_pool_kernel_skel
  unfold owns
  iintro ⟨⟨%f0, %hf0, H0⟩, ⟨%d1, %f1, -, H1⟩, HT, Hk⟩
  obtain rfl := harg2.eq_unread hf0
  sl_exec
  sl_step
  iapply Hk
  isplitl [H0]
  · iexists _; isplitr; · ipureintro; exact harg2.read_unread _
    iexact H0
  isplitl [H1]
  · iexists _; isplitr
    swap; · iexact H1
    ipureintro
    exact read_rows c i arg3 _ xt f1
  iexact HT

/-! ## The pipeline's proof data -/

variable (m : (ℓ : Loc nD τ sig) → Buf (Elt F) ℓ) (ρ : Dev nD → PrngReg)

/-- What the output window's staging buffer holds after the body at point `t`. -/
def outAt (c : Dev nD) (t : Fin (cfgM m).N) : Vec F S8x512 .f32 :=
  blockOf c (grid0.coords t) (imgLoaded (ms0_0 m t) (hs0_0 m t) (iblk m c 0 t)) (tbl m 0)

/-- The proof data: the arrays as the region finds them; after the body the image's buffer as found and the output's at
    the block; the invariant the scoped rest, the generator register and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = outAt m c t := by dsimp only [dats]; try rfl
theorem before0_0 (c : Dev nD) (t : Fin (cfgM m).N) (d) : (dats m 0 c).before 0 t d = iblk m c 0 t :=
  before0_0_of m (dats m 0 c) (A_eq m c 0) (after0_0 m c) t d

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = iprop(Pipeline.ΦA spec0 c ∗ Pipeline.ΦT pre0 (tbl m) c) from rfl, PhiT_eq]
  unfold outAt
  iintro ⟨⟨HΦ, HT⟩, Ho, ⟨%d0, H0⟩, ⟨%d1, H1⟩⟩
  iapply (sound_kernel c Set.univ (grid0.coords t) _ _ _ _ (iblk m c 0 t) (tbl m 0) _)
  isplitl [H0]; · iexact H0
  isplitl [H1]; · iexists _; iexact H1
  isplitl [HT]; · iexact HT
  iintro ⟨H0, H1, HT⟩
  isplitl [HΦ HT]
  · isplitl [HΦ]; · iexact HΦ
    iexact HT
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere; the image's and the result's arrays end at what the
    proof data say, every other unscoped buffer as the reshape after the region leaves it. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

/-- The frame: the program runs to the end, faults nowhere, and leaves the image and the ROIs as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Fr

end
-- ==== Proof.KernelIdealKit.lean ====
/-
  The launch side of the frame, for any float instance.

  @main is thirty-one host operations (the four clamped box corners of every ROI, laid side by side as a
  256 × 4 table of words), the kernel's region with that table prefetched into scalar memory, and one host
  reshape of the region's result.  This module reduces @main to the region continued by the reshape, holding every
  buffer at what the earlier operations left (`V`), and names what the region is launched with: the table's
  contents, the two windows' staging buffers at a grid point, the image window's block.
-/
import proofs.«149995_j90778428768349_2_alg».proof.Proof.Gen.KernelIdeal.Launch
import proofs.«149995_j90778428768349_2_alg».proof.Proof.Gen.KernelIdeal.Skeleton
import proofs.«149995_j90778428768349_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host operations that come before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the earlier host operations, the region, the reshape: it reduces to the region continued by the reshape,
    the buffers held at `V`. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-- The reshape touches the region's result and its own result: neither is the prefetched table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro k
  fin_cases k
  rw [StableHlo.reshape_bufs]
  simp only [Finset.mem_insert, Finset.mem_singleton, not_or]
  exact ⟨StableHlo.devRef_ne_of_ne (by decide), StableHlo.devRef_ne_of_ne (by decide)⟩
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes neither the image nor the region's result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The arguments are written by no host operation -/

/-- No operation before the region writes the image: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the ROIs. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-! ## The prefetched table -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No index map reads the table, so every contents of it is admissible. -/
theorem ok_tbl : ok0 (F := F) (tbl m) := by unfold ok0; trivial
abbrev adm : (pcfg0 (F := F)).Adm := ⟨tbl m, ok_tbl m⟩
abbrev cfgM : Pipeline.Cfg sig Λ₀ := cfg0 (adm m)

/-- The table as the body is handed it: its whole buffer in scalar memory, at half the full share (read only). -/
abbrev tbM : Memref sig .tc .smem S256x4 .i32 := Memref.whole main_v26
abbrev htbM : tbM.IsWhole := Memref.isWhole_whole _
abbrev TbBuf (c : Dev nD) : Type := Buf (Elt F) (tbM.view.loc (c : Thread nD τ))
abbrev tbPt (c : Dev nD) (f : TbBuf (F := F) c) : sProp 𝕄 :=
  tbM.view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The windows at a grid point -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The image window's staging buffer holds the image at every point, fetched there or not, for any proof data whose
    array is the region-entry image and whose body leaves the buffer as it found it. -/
theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The output window is written back at every point. -/
theorem flush0_1 : ∀ t : Fin (cfgM m).N, ((cfgM m).win 1).flush t = true :=
  (by decide +kernel : ∀ t : Fin grid0.N, Pipeline.Window.flushOf grid0 true cc0_transform_1 t = true)

/-- Each window's current staging memref at point `t`, and its wholeness. -/
abbrev ms0_0 (t : Fin (cfgM m).N) : Memref sig .tc .vmem S1x38x38x512 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S8x512 .f32 := spec0_1.stage ((cfgM m).slots t 1)
abbrev hs0_1 (t : Fin (cfgM m).N) : (ms0_1 m t).IsWhole := hstage0_1 (((cfgM m).slots t 1).cast nbuf0_1)

/-- The kernel body at point `t`, on what the pipeline calls it with. -/
abbrev bodyAt (t : Fin (cfgM m).N) : Prog (TpuEff nD τ sig (Elt F) Λ₀ .tc) PUnit :=
  cc0_roi_pool_kernel (grid0.coords t) tbM htbM (ms0_0 m t) (hs0_0 m t) (ms0_1 m t) (hs0_1 m t)

/-! ## The frame claim's post from the frame run's -/

/-- The reshape after the region does not write the ROIs, and they are no array of the pipeline. -/
theorem W_main_arg1 (dats : (p : Fin 1) → (c : Dev nD) → Dat τ (Elt F) Unit ℕ (UR sig nD τ) ℕ ((Pipeline.pin pcfgs fun _ => adm m) p) c) (c : Dev nD) :
    Pipeline.afterTail pcfgs (fun _ => adm m) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- From a frame run to the frame claim: the image is an input window's array, kept by the pipeline; the ROIs bypass the
    region and no host operation writes them. -/
theorem frame_of (dats : (p : Fin 1) → (c : Dev nD) → Dat τ (Elt F) Unit ℕ (UR sig nD τ) ℕ ((Pipeline.pin pcfgs fun _ => adm m) p) c)
    (hA : ∀ c w, (dats 0 c).A w = V m c (Pipeline.arrRef spec0 w))
    (h : θ_run defs (onTc (τ := τ) (main (F := F))) (s₀ m ρ) (Pipeline.FramePost (Pipeline.pin pcfgs fun _ => adm m) dats 0 (Pipeline.afterTail pcfgs (fun _ => adm m) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (W_main_arg1 m dats c)⟩) h

end Cert.KernelIdeal.Fr

end
-- ==== Proof.KernelIdealBody.lean ====
/-
  The kernel's body at one grid point, for any float instance.

  The body loads the whole image once and then, for k = 0 … 7, reads the four box corners of ROI 8·i + k from the
  prefetched table and stores one row of 512 pooled values into row k of the output block.  The counted loop is
  taken by its invariant: before trip k the output buffer holds the rows of the trips before k written over whatever
  it held, the rows listed as equal-sized tiles that the row axis keeps apart.  So after the loop row k of the block
  is the payload of trip k, a function of the image and of the table's row 8·i + k alone.
-/
import proofs.«149995_j90778428768349_2_alg».proof.Proof.KernelIdealKit
import Idealize.ShloMosaic.Lib.WritesUnit

set_option maxRecDepth 16384
set_option maxHeartbeats 4000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip -/

/-- What a trip holds: the table at half share (read only) and the output block's buffer. -/
abbrev TripRes (c : Dev nD) (arg3 : Memref sig .tc .vmem S8x512 .f32) (X : TbBuf (F := F) c) (f : BufTy.Contents (Elt F) arg3.view.ty) : sProp 𝕄 :=
  iprop(tbPt c X ∗ (arg3.view.loc (c : Thread nD τ) ↦[arg3.view.set]{fullShare} f))

/-- One trip at a symbolic `k`: it leaves the table as it was and one more piece written into the output buffer. -/
def tripRun (𝒱 : Variants) (c : Dev nD) (bd : Option 𝒱.V) (i : grid0.Coords) (arg2 : Memref sig .tc .vmem S1x38x38x512 .f32) (harg2 : arg2.IsWhole) (arg3 : Memref sig .tc .vmem S8x512 .f32) (harg3 : arg3.IsWhole) (v1 : Vec F S1x38x38x512 .f32) (X : TbBuf (F := F) c) (k : Fin k0_t1_loop.trips) :
    { L : List (View.Piece (Elt F) S8x512 .f32) // ∀ (E : Set ℕ) (f : BufTy.Contents (Elt F) arg3.view.ty),
      TripRes (F := F) c arg3 X f
      ⊢ wp frame (wpE (defs₀ (F := F)) 𝒱 (c : Thread nD τ) bd) E (k0_t1_body (F := F) i tbM htbM arg2 harg2 arg3 harg3 v1 k PUnit.unit)
          (fun _ => TripRes (F := F) c arg3 X (arg3.view.writes (Elt F) f L)) } := by
  have hk : k.val < 8 := Nat.lt_of_lt_of_le k.isLt k0_t1_abs.2.1
  refine ⟨?_, fun E f => ?run⟩
  case run =>
    unfold k0_t1_body
    iintro ⟨HR, HW⟩
    sl_exec
    sl_step
    sl_close

/-- The row of pooled values trip `k` stores: the body's arithmetic on the image and the four words the trip read. -/
def rowPay (c : Dev nD) (i : grid0.Coords) (v1 : Vec F S1x38x38x512 .f32) (X : TbBuf (F := F) c) (k : Fin k0_t1_loop.trips) :
    (⟨S8x512.rank, S1x512.size⟩ : Shape).Idx → Elt F .f32 :=
  k0_pay1 v1 (tripRun.sl.r c i X k) (tripRun.sl.r_1 c i X k) (tripRun.sl.r_2 c i X k) (tripRun.sl.r_3 c i X k)

/-- The trip writes exactly that row, through row `k` of the buffer. -/
theorem tripL_eq (𝒱 : Variants) (c : Dev nD) (bd : Option 𝒱.V) (i : grid0.Coords) (arg2 : Memref sig .tc .vmem S1x38x38x512 .f32) (harg2 : arg2.IsWhole) (arg3 : Memref sig .tc .vmem S8x512 .f32) (harg3 : arg3.IsWhole) (v1 : Vec F S1x38x38x512 .f32) (X : TbBuf (F := F) c) (k : Fin k0_t1_loop.trips) :
    (tripRun 𝒱 c bd i arg2 harg2 arg3 harg3 v1 X k).1 = [⟨Rect.unit (k0_off5 k) S1x512.size (k0_off5_inb k), rowPay c i v1 X k⟩] := rfl

/-! ## The rows of the trips before `k` -/

/-- The pieces of the trips before `k`, newest first: equal-sized row tiles. -/
def rowsBefore (c : Dev nD) (i : grid0.Coords) (v1 : Vec F S1x38x38x512 .f32) (X : TbBuf (F := F) c) (k : ℕ) : List (View.Piece (Elt F) S8x512 .f32) :=
  if h : k ≤ k0_t1_loop.trips then
    View.tilePieces (s := S8x512) S1x512.size (fun j => k0_off5 j) (fun j => k0_off5_inb j) (rowPay c i v1 X) k h
  else []

theorem rowsBefore_succ (c : Dev nD) (i : grid0.Coords) (v1 : Vec F S1x38x38x512 .f32) (X : TbBuf (F := F) c) (k : Fin k0_t1_loop.trips) :
    rowsBefore c i v1 X (k.val + 1)
      = ⟨Rect.unit (k0_off5 k) S1x512.size (k0_off5_inb k), rowPay c i v1 X k⟩ :: rowsBefore c i v1 X k.val := by
  unfold rowsBefore
  rw [dif_pos (Nat.succ_le_of_lt k.isLt), dif_pos (Nat.le_of_lt k.isLt), View.tilePieces_succ]

/-! ## The loop by its invariant -/

/-- Before trip `k`: the table as it was; the output buffer holding the rows of the trips before `k` over its contents
    at loop entry. -/
abbrev rowsInv (𝒱 : Variants) (c : Dev nD) (bd : Option 𝒱.V) (i : grid0.Coords) (arg3 : Memref sig .tc .vmem S8x512 .f32) (v1 : Vec F S1x38x38x512 .f32) (X : TbBuf (F := F) c) (G : BufTy.Contents (Elt F) arg3.view.ty) (k : ℕ) (_u : PUnit) : sProp 𝕄 :=
  iprop(tbPt c X ∗ (∃ f, (arg3.view.loc (c : Thread nD τ) ↦[arg3.view.set]{fullShare} f) ∗ ⌜f = arg3.view.writes (Elt F) G (rowsBefore c i v1 X k)⌝))

set_option warn.classDefReducibility false in
@[sl_loop] def rowsLoop (𝒱 : Variants) (c : Dev nD) (bd : Option 𝒱.V) (E : Set ℕ) (i : grid0.Coords) (arg2 : Memref sig .tc .vmem S1x38x38x512 .f32) (harg2 : arg2.IsWhole) (arg3 : Memref sig .tc .vmem S8x512 .f32) (harg3 : arg3.IsWhole) (v1 : Vec F S1x38x38x512 .f32) (X : TbBuf (F := F) c) (G : BufTy.Contents (Elt F) arg3.view.ty) :
    LoopInvTy_k0_t1 (F := F) Unit ℕ (UR sig nD τ) ℕ 𝒱 c bd E i tbM htbM arg2 harg2 arg3 harg3 v1 where
  inv := rowsInv (F := F) 𝒱 c bd i arg3 v1 X G
  step k acc := by
    iintro ⟨HR, ⟨%f3, HW, %h3⟩⟩
    iapply (wp_wand_r Idealize.ShloMosaic.frame (wpE (defs₀ (F := F)) 𝒱 (c : Thread nD τ) bd) E)
    isplitl [HR HW]
    · iapply ((tripRun (F := F) 𝒱 c bd i arg2 harg2 arg3 harg3 v1 X k).2 E f3)
      isplitl [HR]; · iexact HR
      iexact HW
    · iintro %_ ⟨HR, HW⟩
      isplitl [HR]; · iexact HR
      rw [rowsBefore_succ]
      iexists _; isplitl [HW]; · iexact HW
      ipureintro; rw [h3, tripL_eq]; rfl

/-! ## What the body leaves in the output block -/

/-- The loop makes eight trips. -/
theorem trips_eq : k0_t1_loop.trips = 8 := by decide +kernel

/-- A row of the output block is the number of a trip. -/
theorem row_lt (y : S8x512.Idx) : (y 0).val < k0_t1_loop.trips := by
  rw [trips_eq]; exact (y 0).isLt

/-- The image as the body's one load returns it, from a staging memref holding `x0`. -/
abbrev imgLoaded (arg2 : Memref sig .tc .vmem S1x38x38x512 .f32) (harg2 : arg2.IsWhole) (x0 : Vec F S1x38x38x512 .f32) : Vec F S1x38x38x512 .f32 :=
  View.readAt (Elt F) arg2.view (Rect.unit (s := S1x38x38x512) ![0, 0, 0, 0] S1x38x38x512.size inb_S1x38x38x512_S1x38x38x512_0_0_0_0).toLoadRect (harg2.unread x0)

/-- Column `y 1` of a one-row tile. -/
abbrev inRow (y : S8x512.Idx) : (⟨S8x512.rank, S1x512.size⟩ : Shape).Idx := fun a => match a with
  | ⟨0, _⟩ => ⟨0, Nat.one_pos⟩
  | ⟨1, _⟩ => ⟨(y 1).val, (y 1).isLt⟩

/-- The output block after the loop: row `y 0` is what trip `y 0` stored. -/
def blockOf (c : Dev nD) (i : grid0.Coords) (v1 : Vec F S1x38x38x512 .f32) (xt : TbBuf (F := F) c) : Vec F S8x512 .f32 :=
  fun y => rowPay c i v1 xt ⟨(y 0).val, row_lt y⟩ (inRow y)

/-- Eight row stores, one per row, read back: whatever the buffer held, it now holds the block. -/
theorem read_rows (c : Dev nD) (i : grid0.Coords) (arg3 : Memref sig .tc .vmem S8x512 .f32) (v1 : Vec F S1x38x38x512 .f32) (xt : TbBuf (F := F) c)
    (f : BufTy.Contents (Elt F) arg3.view.ty) :
    arg3.view.read (Elt F) (arg3.view.writes (Elt F) f (rowsBefore c i v1 xt k0_t1_loop.trips)) = blockOf c i v1 xt := by
  funext y
  unfold rowsBefore blockOf
  rw [dif_pos le_rfl]
  refine View.read_tilePieces arg3.view f S1x512.size (fun j => k0_off5 j) (fun j => k0_off5_inb j) (rowPay c i v1 xt)
    k0_t1_loop.trips le_rfl y ⟨(y 0).val, row_lt y⟩ (row_lt y) (inRow y) ?_ (0 : Fin 2) ?_
  · intro a
    show (y a).val = k0_off5 _ a + (inRow y a).val
    rw [k0_off5_eq]
    match a with
    | ⟨0, _⟩ => show (y 0).val = (y 0).val + 0; omega
    | ⟨1, _⟩ => show (y 1).val = 0 + (y 1).val; omega
  · intro j hj
    show (y 0).val < k0_off5 j 0 ∨ k0_off5 j 0 + S1x512.size 0 ≤ (y 0).val
    rw [k0_off5_eq]
    have hne : j.val ≠ (y 0).val := fun h => hj (Fin.ext h)
    show (y 0).val < j.val ∨ j.val + 1 ≤ (y 0).val
    omega

/-! ## The body's triple -/

/-- The body on whole staging memrefs — the image's at `x0`, the output's at anything, the table at half share — runs to
    the continuation holding the image's and the table as they were and the output's at the block. -/
theorem sound_kernel (c : Dev nD) (E : Set ℕ) (i : grid0.Coords) (arg2 : Memref sig .tc .vmem S1x38x38x512 .f32) (harg2 : arg2.IsWhole) (arg3 : Memref sig .tc .vmem S8x512 .f32) (harg3 : arg3.IsWhole)
    (x0 : Vec F S1x38x38x512 .f32) (xt : TbBuf (F := F) c) (K : PUnit → sProp 𝕄) :
    iprop(owns (c : Thread nD τ) arg2 fullShare x0 ∗ (∃ d, owns (c : Thread nD τ) arg3 fullShare d) ∗ tbPt c xt
        ∗ (iprop(owns (c : Thread nD τ) arg2 fullShare x0 ∗ owns (c : Thread nD τ) arg3 fullShare (blockOf c i (imgLoaded arg2 harg2 x0) xt) ∗ tbPt c xt) -∗ K ⟨⟩))
      ⊢ wp frame (wpE (defs₀ (F := F)) Variants.none c none) E (cc0_roi_pool_kernel i tbM htbM arg2 harg2 arg3 harg3) K := by
  simp only [cc0_roi_pool_kernel_eq_skeleton]; unfold cc0_roi_pool_kernel_skel
  unfold owns
  iintro ⟨⟨%f0, %hf0, H0⟩, ⟨%d1, %f1, -, H1⟩, HT, Hk⟩
  obtain rfl := harg2.eq_unread hf0
  sl_exec
  sl_step
  iapply Hk
  isplitl [H0]
  · iexists _; isplitr; · ipureintro; exact harg2.read_unread _
    iexact H0
  isplitl [H1]
  · iexists _; isplitr
    swap; · iexact H1
    ipureintro
    exact read_rows c i arg3 _ xt f1
  iexact HT

/-! ## The pipeline's proof data -/

variable (m : (ℓ : Loc nD τ sig) → Buf (Elt F) ℓ) (ρ : Dev nD → PrngReg)

/-- What the output window's staging buffer holds after the body at point `t`. -/
def outAt (c : Dev nD) (t : Fin (cfgM m).N) : Vec F S8x512 .f32 :=
  blockOf c (grid0.coords t) (imgLoaded (ms0_0 m t) (hs0_0 m t) (iblk m c 0 t)) (tbl m 0)

/-- The proof data: the arrays as the region finds them; after the body the image's buffer as found and the output's at
    the block; the invariant the scoped rest, the generator register and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = outAt m c t := by dsimp only [dats]; try rfl
theorem before0_0 (c : Dev nD) (t : Fin (cfgM m).N) (d) : (dats m 0 c).before 0 t d = iblk m c 0 t :=
  before0_0_of m (dats m 0 c) (A_eq m c 0) (after0_0 m c) t d

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0_0]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = iprop(Pipeline.ΦA spec0 c ∗ Pipeline.ΦT pre0 (tbl m) c) from rfl, PhiT_eq]
  unfold outAt
  iintro ⟨⟨HΦ, HT⟩, Ho, ⟨%d0, H0⟩, ⟨%d1, H1⟩⟩
  iapply (sound_kernel c Set.univ (grid0.coords t) _ _ _ _ (iblk m c 0 t) (tbl m 0) _)
  isplitl [H0]; · iexact H0
  isplitl [H1]; · iexists _; iexact H1
  isplitl [HT]; · iexact HT
  iintro ⟨H0, H1, HT⟩
  isplitl [HΦ HT]
  · isplitl [HΦ]; · iexact HΦ
    iexact HT
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, faulting nowhere; the image's and the result's arrays end at what the
    proof data say, every other unscoped buffer as the reshape after the region leaves it. -/
theorem run_main : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

/-- The frame: the program runs to the end, faults nowhere, and leaves the image and the ROIs as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Fr

end
-- ==== Proof.RoiMax.lean ====
/-
  The specification shared by the two sides: ROI max pooling with a 1 × 1 output bin, at the ideal values.

  A ROI is a row (x, y, w, h) of real numbers.  Its box on the 38 × 38 feature map is the set of cells (row, col)
  with  y1 ≤ row < y2  and  x1 ≤ col < x2,  where x1 = max(0, ⌊x⌋), y1 = max(0, ⌊y⌋), x2 = min(38, ⌊x + w⌋),
  y2 = min(38, ⌊y + h⌋) are 32-bit words, the conversion to an integer being the programs' own (`FloatOps.fptosi`)
  and every comparison signed.  A cell inside the box contributes the image's entry, a cell outside it contributes
  the most negative finite binary32 number; the pooled value of ROI r in channel d is the maximum of the 38 · 38
  contributions, taken from −∞.
-/
import Idealize.ShloMosaic.PureOps.Ideal
import Idealize.ShloMosaic.PureOps.Ideal.Laws
import Idealize.ShloMosaic.Lib.ValueIdx

noncomputable section

namespace Cert.RoiMax

open Idealize.ShloMosaic Idealize.ShloMosaic.ValueIdx

/-- The image, the ROIs and the result as arrays of extended reals. -/
abbrev Img : Type := (⟨4, ![1, 38, 38, 512]⟩ : Shape).Idx → EReal
abbrev Rois : Type := (⟨2, ![256, 4]⟩ : Shape).Idx → EReal
abbrev Out : Type := (⟨5, ![1, 256, 1, 1, 512]⟩ : Shape).Idx → EReal

/-- The lower corner of a box along one axis: the coordinate truncated to a word, not below 0. -/
def lowCorner (v : EReal) : BitVec 32 := IntOp.maxsi 0#32 (FloatOps.fptosi (F := Ideal) (φ := .f32) 32 v)
/-- The upper corner: the coordinate plus the extent, truncated to a word, not above 38. -/
def highCorner (v e : EReal) : BitVec 32 := IntOp.minsi 38#32 (FloatOps.fptosi (F := Ideal) (φ := .f32) 32 (v + e))

def x1 (rois : Rois) (r : Fin 256) : BitVec 32 := lowCorner (rois (ix2 r 0))
def y1 (rois : Rois) (r : Fin 256) : BitVec 32 := lowCorner (rois (ix2 r 1))
def x2 (rois : Rois) (r : Fin 256) : BitVec 32 := highCorner (rois (ix2 r 0)) (rois (ix2 r 2))
def y2 (rois : Rois) (r : Fin 256) : BitVec 32 := highCorner (rois (ix2 r 1)) (rois (ix2 r 3))

/-- Row `h` lies in ROI `r`'s box: y1 ≤ h < y2 (signed), as a one-bit word. -/
def rowIn (rois : Rois) (r : Fin 256) (h : Fin 38) : BitVec 1 :=
  IntOp.andi (IntOp.cmpi .sge (BitVec.ofNat 32 h.val) (y1 rois r)) (IntOp.cmpi .slt (BitVec.ofNat 32 h.val) (y2 rois r))
/-- Column `w` lies in ROI `r`'s box: x1 ≤ w < x2 (signed). -/
def colIn (rois : Rois) (r : Fin 256) (w : Fin 38) : BitVec 1 :=
  IntOp.andi (IntOp.cmpi .sge (BitVec.ofNat 32 w.val) (x1 rois r)) (IntOp.cmpi .slt (BitVec.ofNat 32 w.val) (x2 rois r))

/-- What cell (h, w) contributes to ROI `r` in channel `d`: the image's entry inside the box, the most negative
    finite binary32 number outside it. -/
def cell (img : Img) (rois : Rois) (r : Fin 256) (h w : Fin 38) (d : Fin 512) : EReal :=
  Scalar.select (IntOp.andi (rowIn rois r h) (colIn rois r w)) (img (ix4 0 h w d)) (Ideal.ofBits .f32 0xFF7FFFFF#32)

/-- The pooled value: the maximum over all cells of the contributions, from −∞. -/
def pooled (img : Img) (rois : Rois) : Out := fun i =>
  (Finset.univ : Finset (Fin 38 × Fin 38)).fold max (Ideal.ofBits .f32 0xFF800000#32)
    (fun hw => cell img rois (i 1) hw.1 hw.2 (i 4))

/-- A value is the pooled value exactly when its upper bounds are the common upper bounds of −∞'s word and of every
    cell's contribution: a maximum is determined by its upper bounds. -/
theorem eq_pooled_iff (img : Img) (rois : Rois) (i : (⟨5, ![1, 256, 1, 1, 512]⟩ : Shape).Idx) (v : EReal) :
    v = pooled img rois i ↔
      ∀ z : EReal, v ≤ z ↔ (Ideal.ofBits .f32 0xFF800000#32 ≤ z ∧ ∀ (h w : Fin 38), cell img rois (i 1) h w (i 4) ≤ z) := by
  have key : ∀ z : EReal, pooled img rois i ≤ z ↔
      (Ideal.ofBits .f32 0xFF800000#32 ≤ z ∧ ∀ (h w : Fin 38), cell img rois (i 1) h w (i 4) ≤ z) := by
    intro z
    unfold pooled
    rw [Finset.fold_max_le]
    constructor
    · rintro ⟨h0, h1⟩; exact ⟨h0, fun h w => h1 (h, w) (Finset.mem_univ _)⟩
    · rintro ⟨h0, h1⟩; exact ⟨h0, fun hw _ => h1 hw.1 hw.2⟩
  constructor
  · rintro rfl; exact key
  · intro hv
    exact le_antisymm ((hv _).mpr ((key _).mp le_rfl)) ((key _).mpr ((hv _).mp le_rfl))

end Cert.RoiMax

end
-- ==== Proof.RefCorners.lean ====
/-
  The four clamped box corners, as the host computes them: at row r the vectors of lower and upper corners are the
  specification's x1, y1, x2, y2 — a slice of one column of the ROIs (or the sum of two), truncated to a word and
  clamped against 0 or 38.
-/
import proofs.«149995_j90778428768349_2_alg».proof.Proof.Gen.ReferenceIdeal.Read
import proofs.«149995_j90778428768349_2_alg».proof.Proof.RoiMax
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

variable (rois : (⟨S256x4, .f32⟩ : BufTy).Contents (Elt Ideal)) (r : Fin 256)

theorem col0 : idx_main_v0 (idx_main_v1 (ix1 r)) = ix2 r 0 :=
  funext fun a => Fin.ext (by match a with | ⟨0, _⟩ => exact Nat.div_one _ | ⟨1, _⟩ => rfl)
theorem col1 : idx_main_v2 (idx_main_v3 (ix1 r)) = ix2 r 1 :=
  funext fun a => Fin.ext (by match a with | ⟨0, _⟩ => exact Nat.div_one _ | ⟨1, _⟩ => rfl)
theorem col2 : idx_main_v4 (idx_main_v5 (ix1 r)) = ix2 r 2 :=
  funext fun a => Fin.ext (by match a with | ⟨0, _⟩ => exact Nat.div_one _ | ⟨1, _⟩ => rfl)
theorem col3 : idx_main_v6 (idx_main_v7 (ix1 r)) = ix2 r 3 :=
  funext fun a => Fin.ext (by match a with | ⟨0, _⟩ => exact Nat.div_one _ | ⟨1, _⟩ => rfl)

/-- The lower corner along the columns. -/
theorem v10_x1 : val_main_v10 (F := Ideal) rois (ix1 r) = Cert.RoiMax.x1 rois r := by
  simp only [val_main_v10_apply, val_main_v9_apply, val_main_c_apply, val_main_v8_apply, val_main_v1_apply, val_main_v0_apply]
  rw [col0]; rfl
/-- The lower corner along the rows. -/
theorem v13_y1 : val_main_v13 (F := Ideal) rois (ix1 r) = Cert.RoiMax.y1 rois r := by
  simp only [val_main_v13_apply, val_main_v12_apply, val_main_c_0_apply, val_main_v11_apply, val_main_v3_apply, val_main_v2_apply]
  rw [col1]; rfl
/-- The upper corner along the columns. -/
theorem v17_x2 : val_main_v17 (F := Ideal) rois (ix1 r) = Cert.RoiMax.x2 rois r := by
  simp only [val_main_v17_apply, val_main_v16_apply, val_main_c_1_apply, val_main_v15_apply, val_main_v14_apply,
    val_main_v1_apply, val_main_v0_apply, val_main_v5_apply, val_main_v4_apply]
  rw [col0, col2]; rfl
/-- The upper corner along the rows. -/
theorem v21_y2 : val_main_v21 (F := Ideal) rois (ix1 r) = Cert.RoiMax.y2 rois r := by
  simp only [val_main_v21_apply, val_main_v20_apply, val_main_c_2_apply, val_main_v19_apply, val_main_v18_apply,
    val_main_v3_apply, val_main_v2_apply, val_main_v7_apply, val_main_v6_apply]
  rw [col1, col3]; rfl

end Cert.ReferenceIdeal.RefValue

end
-- ==== Proof.LibConcatSame.lean ====
/-
  A concatenation of three or of four pieces of ONE shape along an axis, read at an index: the piece is the one the
  axis coordinate names when divided by the pieces' common extent on that axis, read at the index whose axis
  coordinate is the remainder and whose other coordinates are unchanged. The pieces are given as a literal list, the
  way a program prints a concatenation of three or four operands; the general statement for a family of pieces is
  the library's.
-/
import Idealize.ShloMosaic.Lib.Pipeline.Value
import Idealize.ShloMosaic.Lib.ValueIdx

noncomputable section

namespace Cert.LibConcatSame

open Idealize.ShloMosaic

variable {α : Type} {t s₁ : Shape}

/-- Three pieces of one shape: entry `j` is piece `(j a) / K` at `j` with its axis coordinate reduced modulo `K`. -/
theorem concat3_apply (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (K : Nat) (hK : s₁.size (a.cast hr.symm) = K) (j : t.Idx) (n : Fin 3)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) n i :=
  concatenate_ofFn_apply a (![x0, x1, x2] : Fin 3 → s₁.Idx → α) h hr K hK j n hn i hia hi

/-- Four pieces of one shape, the same way. -/
theorem concat4_apply (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

end Cert.LibConcatSame

end
-- ==== Proof.KernelIdealTable.lean ====
/-
  The prefetched table, at the ideal values: entry (r, j) is corner j of ROI r — x1, y1, x2, y2 for j = 0, 1, 2, 3 —
  because the table is the four corner vectors laid side by side as columns; so the four words trip k of grid point i
  loads are the corners of ROI 8·i + k, and the row the trip stores is the body's arithmetic on the image and those
  corners.
-/
import proofs.«149995_j90778428768349_2_alg».proof.Proof.KernelIdealBody
import proofs.«149995_j90778428768349_2_alg».proof.Proof.RefCorners
import proofs.«149995_j90778428768349_2_alg».proof.Proof.LibConcatSame
import Idealize.ShloMosaic.Lib.StableHlo.Run
import Idealize.ShloMosaic.Lib.Pipeline.Value
import Idealize.ShloMosaic.PureOps.Ideal

set_option maxRecDepth 16384
set_option maxHeartbeats 4000000

noncomputable section

namespace Cert.KernelIdeal.Fr

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The ROIs as launched (the program runs on one device). -/
abbrev roisOf : Cert.RoiMax.Rois := m (0, Proc.devRef .tc main_arg1)

/-- A vector of 256 words as a 256 × 1 column. -/
abbrev col (v : S256.Idx → BitVec 32) : S256x1.Idx → BitVec 32 := broadcastInDim S256x1 ![0] bcast_S256_S256x1_0 v

theorem col_apply (v : S256.Idx → BitVec 32) (r : Fin 256) : col v (ix2 r 0) = v (ix1 r) :=
  broadcastInDim_apply _ bcast_S256_S256x1_0 v (ix2 r 0) (ix1 r) (fun a => match a with
    | ⟨0, _⟩ => by show r.val = if (256 : Nat) = 1 then 0 else r.val; rw [if_neg (by decide)])

/-- The table is the four corner vectors side by side. -/
theorem tbl_eq : (tbl m 0 : S256x4.Idx → BitVec 32)
    = concatenate S256x4 1 [⟨S256x1, col (Cert.ReferenceIdeal.Read.val_main_v10 (F := Ideal) (roisOf m))⟩,
        ⟨S256x1, col (Cert.ReferenceIdeal.Read.val_main_v13 (F := Ideal) (roisOf m))⟩,
        ⟨S256x1, col (Cert.ReferenceIdeal.Read.val_main_v17 (F := Ideal) (roisOf m))⟩,
        ⟨S256x1, col (Cert.ReferenceIdeal.Read.val_main_v21 (F := Ideal) (roisOf m))⟩]
        concatenates_S256x1_S256x1_S256x1_S256x1_S256x4_d1 := by
  unfold tbl
  show V m 0 main_v26 = _
  dsimp only [V, V0]
  simp only [hostOps0, List.flatten_cons, List.flatten_nil, List.append_nil, after_cons, after_nil]
  refine (nary4_result _ _ _ _).trans ?_
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

/-- Entry (r, j) of the table is corner j of ROI r. -/
theorem tbl_entry (r : Fin 256) (j : Fin 4) :
    (tbl m 0 : S256x4.Idx → BitVec 32) (ix2 r j)
      = (![Cert.RoiMax.x1 (roisOf m) r, Cert.RoiMax.y1 (roisOf m) r, Cert.RoiMax.x2 (roisOf m) r, Cert.RoiMax.y2 (roisOf m) r] : Fin 4 → BitVec 32) j := by
  rw [tbl_eq]
  rw [Cert.LibConcatSame.concat4_apply (t := S256x4) (s₁ := S256x1) (1 : Fin 2) _ _ _ _ _ rfl 1 rfl (ix2 r j) j
    (by show j.val / 1 = j.val; omega) (ix2 r 0) (by show 0 = j.val % 1; omega)
    (by intro b hb; match b with | ⟨0, _⟩ => rfl | ⟨1, _⟩ => exact absurd rfl hb)]
  match j with
  | ⟨0, _⟩ => exact (col_apply _ r).trans (Cert.ReferenceIdeal.RefValue.v10_x1 (roisOf m) r)
  | ⟨1, _⟩ => exact (col_apply _ r).trans (Cert.ReferenceIdeal.RefValue.v13_y1 (roisOf m) r)
  | ⟨2, _⟩ => exact (col_apply _ r).trans (Cert.ReferenceIdeal.RefValue.v17_x2 (roisOf m) r)
  | ⟨3, _⟩ => exact (col_apply _ r).trans (Cert.ReferenceIdeal.RefValue.v21_y2 (roisOf m) r)

/-- A unit rectangle of the table at offsets (r, j) reads entry (r, j). -/
theorem idx_at (r : Fin 256) (j : Fin 4) (off : Fin 2 → Nat) (h0 : off 0 = r.val) (hj : off 1 = j.val)
    (inb : ∀ a, off a + S1x1.size a ≤ S256x4.size a) (h1 : 0 < S1x1.numel) :
    (Rect.unit (s := S256x4) off S1x1.size inb).idx (Shape.Idx.first h1) = ix2 r j := by
  funext a
  apply Fin.ext
  have e0 : (Shape.Idx.first h1 (0 : Fin 2)).val = 0 := by
    have := (Shape.Idx.first h1 (0 : Fin 2)).isLt
    have e : S1x1.size (0 : Fin 2) = 1 := by decide
    omega
  have e1 : (Shape.Idx.first h1 (1 : Fin 2)).val = 0 := by
    have := (Shape.Idx.first h1 (1 : Fin 2)).isLt
    have e : S1x1.size (1 : Fin 2) = 1 := by decide
    omega
  match a with
  | ⟨0, _⟩ => show off 0 + 1 * (Shape.Idx.first h1 (0 : Fin 2)).val = r.val; rw [e0, h0]; omega
  | ⟨1, _⟩ => show off 1 + 1 * (Shape.Idx.first h1 (1 : Fin 2)).val = j.val; rw [e1, hj]; omega

/-- The word loaded through the whole table at a unit rectangle is the table's entry there. -/
theorem word_at (c : Dev nD) (X : TbBuf (F := Ideal) c) (r : Fin 256) (j : Fin 4) (off : Fin 2 → Nat) (h0 : off 0 = r.val) (hj : off 1 = j.val)
    (inb : ∀ a, off a + S1x1.size a ≤ S256x4.size a) (h1 : 0 < S1x1.numel) :
    tbM.view.readAt (Elt Ideal) (Rect.unit (s := S256x4) off S1x1.size inb).toLoadRect X (Shape.Idx.first h1) = X (ix2 r j) :=
  congrArg X (idx_at r j off h0 hj inb h1)

/-- The ROI trip `k` of grid point `i` works on. -/
abbrev roiOf (i : grid0.Coords) (k : Fin k0_t1_loop.trips) : Fin 256 :=
  ⟨8 * (i 0).val + k.val, by have h1 : (i 0).val < 32 := (i 0).isLt; have h2 : k.val < 8 := Nat.lt_of_lt_of_le k.isLt k0_t1_abs.2.1; omega⟩

/-- The row trip `k` stores is the body's arithmetic on the image and the four corners of its ROI. -/
theorem rowPay_eq (i : grid0.Coords) (v1 : Vec Ideal S1x38x38x512 .f32) (k : Fin k0_t1_loop.trips) :
    rowPay (F := Ideal) (0 : Dev nD) i v1 (tbl m 0) k
      = k0_pay1 (F := Ideal) v1 (Cert.RoiMax.x1 (roisOf m) (roiOf i k)) (Cert.RoiMax.y1 (roisOf m) (roiOf i k))
          (Cert.RoiMax.x2 (roisOf m) (roiOf i k)) (Cert.RoiMax.y2 (roisOf m) (roiOf i k)) := by
  unfold rowPay tripRun.sl.r tripRun.sl.r_1 tripRun.sl.r_2 tripRun.sl.r_3
  rw [word_at (0 : Dev nD) (tbl m 0) (roiOf i k) 0 (k0_off1 i k) (by rw [k0_off1_eq]; rfl) (by rw [k0_off1_eq]; rfl),
    word_at (0 : Dev nD) (tbl m 0) (roiOf i k) 1 (k0_off2 i k) (by rw [k0_off2_eq]; rfl) (by rw [k0_off2_eq]; rfl),
    word_at (0 : Dev nD) (tbl m 0) (roiOf i k) 2 (k0_off3 i k) (by rw [k0_off3_eq]; rfl) (by rw [k0_off3_eq]; rfl),
    word_at (0 : Dev nD) (tbl m 0) (roiOf i k) 3 (k0_off4 i k) (by rw [k0_off4_eq]; rfl) (by rw [k0_off4_eq]; rfl)]
  rw [tbl_entry m (roiOf i k) 0, tbl_entry m (roiOf i k) 1, tbl_entry m (roiOf i k) 2, tbl_entry m (roiOf i k) 3]
  rfl

end Cert.KernelIdeal.Fr

end
-- ==== Proof.PayPooled.lean ====
/-
  The kernel body's arithmetic, at the ideal values, on an image and the four box corners of a ROI, is the
  specification's pooled row.

  The body masks the image — entry (h, w, d) where y1 ≤ h < y2 and x1 ≤ w < x2 (signed), the most negative finite
  binary32 number elsewhere —, takes the maximum over the columns w, then over the rows h, each from −∞, and reshapes the
  512 results to one row. Read at an index, the masked array is the specification's contribution of cell (h, w): the
  four comparisons are the same words, joined by the same conjunction up to associativity. A maximum from −∞ over one
  axis is below z exactly when −∞ and each of its terms are, so the maximum of maxima has the upper bounds that
  determine the pooled value.
-/
import proofs.«149995_j90778428768349_2_alg».proof.Proof.Gen.KernelIdeal.Skeleton
import proofs.«149995_j90778428768349_2_alg».proof.Proof.RoiMax
import Idealize.ShloMosaic.Lib.ValueIdx
import Idealize.ShloMosaic.Lib.Pipeline.Value
import Idealize.ShloMosaic.PureOps.Ideal.Laws
import Idealize.ShloMosaic.PureOps.Reduce

noncomputable section

namespace Cert.KernelIdeal.RowValue

open Cert.KernelIdeal Cert.KernelIdeal.Gen Idealize.ShloMosaic Idealize.ShloMosaic.ValueIdx

/-- The array the body reduces: the image's entry where the four comparisons hold, the most negative finite binary32
    number elsewhere. -/
def masked (img : Vec Ideal S1x38x38x512 .f32) (x1 y1 x2 y2 : BitVec 32) : FVec Ideal S38x38x512 .f32 :=
  select
    (andi (andi (andi (cmpi .sge (iota .tc S38x38x512 32 [0] iota_S38x38x512_d0_w32) (broadcast S38x38x512 y1))
        (cmpi .slt (iota .tc S38x38x512 32 [0] iota_S38x38x512_d0_w32) (broadcast S38x38x512 y2)))
      (cmpi .sge (iota .tc S38x38x512 32 [1] iota_S38x38x512_d1_w32) (broadcast S38x38x512 x1)))
      (cmpi .slt (iota .tc S38x38x512 32 [1] iota_S38x38x512_d1_w32) (broadcast S38x38x512 x2)))
    (shapeCast S38x38x512 img shapeCasts_S1x38x38x512_S38x38x512)
    (broadcast S38x38x512 (Scalar.ofBits (F := Ideal) .f32 0xFF7FFFFF#32))

/-- The maximum of that array over the columns w, from −∞: one value per row h and channel d. -/
def rowMax (img : Vec Ideal S1x38x38x512 .f32) (x1 y1 x2 y2 : BitVec 32) : FVec Ideal S38x512 .f32 :=
  multiReduction .maximumf [1] S38x512 (masked img x1 y1 x2 y2) 0xFF800000#32 reduces_S38x38x512_S38x512 (.inl rfl) rfl

/-- The body's value is the maximum of those over the rows h, from −∞, reshaped. -/
theorem k0_pay1_eq (img : Vec Ideal S1x38x38x512 .f32) (x1 y1 x2 y2 : BitVec 32) :
    k0_pay1 (F := Ideal) img x1 y1 x2 y2 =
      shapeCast S1x512
        (multiReduction .maximumf [0] S512 (rowMax img x1 y1 x2 y2) 0xFF800000#32 reduces_S38x512_S512 (.inl rfl) rfl)
        shapeCasts_S512_S1x512 := rfl

/-- That array at (h, w, d), at the corners of ROI r, is the specification's contribution of cell (h, w). -/
theorem masked_cell (img : Vec Ideal S1x38x38x512 .f32) (rois : Cert.RoiMax.Rois) (r : Fin 256) (h w : Fin 38) (d : Fin 512) :
    masked img (Cert.RoiMax.x1 rois r) (Cert.RoiMax.y1 rois r) (Cert.RoiMax.x2 rois r) (Cert.RoiMax.y2 rois r) (ix3 h w d)
      = Cert.RoiMax.cell img rois r h w d := by
  have hh : h.val < 38 := h.isLt
  have hw : w.val < 38 := w.isLt
  have hd : d.val < 512 := d.isLt
  have eimg : shapeCast S38x38x512 img shapeCasts_S1x38x38x512_S38x38x512 (ix3 h w d) = img (ix4 0 h w d) :=
    shapeCast_apply img shapeCasts_S1x38x38x512_S38x38x512 (ix3 h w d) (ix4 0 h w d)
      (by rw [Shape.rowMajor_val_four, Shape.rowMajor_val_three]
          show ((0 * 38 + h.val) * 38 + w.val) * 512 + d.val = (h.val * 38 + w.val) * 512 + d.val
          omega)
  have i0 : iota .tc S38x38x512 32 [0] iota_S38x38x512_d0_w32 (ix3 h w d) = BitVec.ofNat 32 h.val :=
    iota_single_apply .tc S38x38x512 32 0 iota_S38x38x512_d0_w32 (ix3 h w d)
  have i1 : iota .tc S38x38x512 32 [1] iota_S38x38x512_d1_w32 (ix3 h w d) = BitVec.ofNat 32 w.val :=
    iota_single_apply .tc S38x38x512 32 1 iota_S38x38x512_d1_w32 (ix3 h w d)
  unfold masked
  rw [select_apply, eimg]
  unfold Cert.RoiMax.cell Cert.RoiMax.rowIn Cert.RoiMax.colIn
  show Scalar.select
      (IntOp.andi (IntOp.andi (IntOp.andi
          (IntOp.cmpi .sge (iota .tc S38x38x512 32 [0] iota_S38x38x512_d0_w32 (ix3 h w d)) (Cert.RoiMax.y1 rois r))
          (IntOp.cmpi .slt (iota .tc S38x38x512 32 [0] iota_S38x38x512_d0_w32 (ix3 h w d)) (Cert.RoiMax.y2 rois r)))
        (IntOp.cmpi .sge (iota .tc S38x38x512 32 [1] iota_S38x38x512_d1_w32 (ix3 h w d)) (Cert.RoiMax.x1 rois r)))
        (IntOp.cmpi .slt (iota .tc S38x38x512 32 [1] iota_S38x38x512_d1_w32 (ix3 h w d)) (Cert.RoiMax.x2 rois r)))
      (img (ix4 0 h w d)) (Ideal.ofBits .f32 0xFF7FFFFF#32) = _
  rw [i0, i1]
  exact congrArg (fun m => Scalar.select m (img (ix4 0 h w d)) (Ideal.ofBits .f32 0xFF7FFFFF#32)) (BitVec.and_assoc _ _ _)

/-- A row's maximum is below z exactly when −∞ and every cell of the row are. -/
theorem rowMax_le (img : Vec Ideal S1x38x38x512 .f32) (rois : Cert.RoiMax.Rois) (r : Fin 256) (k : Fin 38) (d : Fin 512)
    (z : EReal) :
    rowMax img (Cert.RoiMax.x1 rois r) (Cert.RoiMax.y1 rois r) (Cert.RoiMax.x2 rois r) (Cert.RoiMax.y2 rois r) (ix2 k d) ≤ z
      ↔ (Ideal.ofBits .f32 0xFF800000#32 ≤ z ∧ ∀ w : Fin 38, Cert.RoiMax.cell img rois r k w d ≤ z) := by
  have lift1 : ∀ w : Fin 38, reduces_S38x38x512_S38x512.lift (ix2 k d) w = ix3 k w d := fun w =>
    funext fun a => Fin.ext (by match a with | ⟨0, _⟩ => rfl | ⟨1, _⟩ => rfl | ⟨2, _⟩ => rfl)
  have cellAt : ∀ w : Fin 38,
      masked img (Cert.RoiMax.x1 rois r) (Cert.RoiMax.y1 rois r) (Cert.RoiMax.x2 rois r) (Cert.RoiMax.y2 rois r)
        (reduces_S38x38x512_S38x512.lift (ix2 k d) w) = Cert.RoiMax.cell img rois r k w d := fun w =>
    (congrArg _ (lift1 w)).trans (masked_cell img rois r k w d)
  have e := Ideal.multiReduction_maximumf_single
    (masked img (Cert.RoiMax.x1 rois r) (Cert.RoiMax.y1 rois r) (Cert.RoiMax.x2 rois r) (Cert.RoiMax.y2 rois r))
    0xFF800000#32 reduces_S38x38x512_S38x512 (.inl rfl) rfl (ix2 k d)
  unfold rowMax
  rw [e, Finset.fold_max_le]
  simp only [Function.comp_apply]
  refine and_congr Iff.rfl ?_
  constructor
  · intro H w
    exact le_of_eq_of_le (cellAt w).symm (H w (Finset.mem_univ _))
  · intro H w _
    exact le_of_eq_of_le (cellAt w) (H w)

/-- The body's value at channel d, at the corners of ROI r, is the specification's pooled value: the maximum over the
    rows h of the maximum over the columns w of the cell contributions, each from −∞, has the upper bounds that
    determine the pooled value. -/
theorem pay_pooled (img : Vec Ideal S1x38x38x512 .f32) (rois : Cert.RoiMax.Rois) (r : Fin 256) (d : Fin 512) :
    Cert.KernelIdeal.Gen.k0_pay1 (F := Ideal) img (Cert.RoiMax.x1 rois r) (Cert.RoiMax.y1 rois r) (Cert.RoiMax.x2 rois r) (Cert.RoiMax.y2 rois r) (ix2 0 d)
      = Cert.RoiMax.pooled img rois (ix5 0 r 0 0 d) := by
  have hd : d.val < 512 := d.isLt
  rw [Cert.RoiMax.eq_pooled_iff]
  intro z
  show _ ↔ (_ ∧ ∀ (h w : Fin 38), Cert.RoiMax.cell img rois r h w d ≤ z)
  have lift0 : ∀ k : Fin 38, reduces_S38x512_S512.lift (ix1 d) k = ix2 k d := fun k =>
    funext fun a => Fin.ext (by match a with | ⟨0, _⟩ => rfl | ⟨1, _⟩ => rfl)
  have rowAt : ∀ k : Fin 38,
      rowMax img (Cert.RoiMax.x1 rois r) (Cert.RoiMax.y1 rois r) (Cert.RoiMax.x2 rois r) (Cert.RoiMax.y2 rois r)
        (reduces_S38x512_S512.lift (ix1 d) k)
      = rowMax img (Cert.RoiMax.x1 rois r) (Cert.RoiMax.y1 rois r) (Cert.RoiMax.x2 rois r) (Cert.RoiMax.y2 rois r)
        (ix2 k d) := fun k => congrArg _ (lift0 k)
  have e := Ideal.multiReduction_maximumf_single
    (rowMax img (Cert.RoiMax.x1 rois r) (Cert.RoiMax.y1 rois r) (Cert.RoiMax.x2 rois r) (Cert.RoiMax.y2 rois r))
    0xFF800000#32 reduces_S38x512_S512 (.inl rfl) rfl (ix1 d)
  rw [k0_pay1_eq, shapeCast_apply _ shapeCasts_S512_S1x512 (ix2 0 d) (ix1 d)
    (by rw [Shape.rowMajor_val_one, Shape.rowMajor_val_two]; show d.val = 0 * 512 + d.val; omega)]
  rw [Function.comp_def] at e
  rw [e, Finset.fold_max_le]
  constructor
  · rintro ⟨hinit, H⟩
    refine ⟨hinit, fun h w => ?_⟩
    exact ((rowMax_le img rois r h d z).1 (le_of_eq_of_le (rowAt h).symm (H h (Finset.mem_univ _)))).2 w
  · rintro ⟨hinit, H⟩
    refine ⟨hinit, fun k _ => ?_⟩
    exact le_of_eq_of_le (rowAt k) ((rowMax_le img rois r k d z).2 ⟨hinit, fun w => H k w⟩)

end Cert.KernelIdeal.RowValue

end
-- ==== Proof.KernelIdealValue.lean ====
/-
  The kernel's result at the ideal values: the specification's pooled array.

  Point t of the grid writes back block t of the 256 × 512 result — rows 8·t … 8·t + 7 — and row k of that block is
  the body's arithmetic on the launched image and the corners of ROI 8·t + k, which is the pooled row of that ROI. The
  32 blocks tile the result, so the whole array holds the pooled values; the reshape after the region only renames the
  index (r, d) as (0, r, 0, 0, d).
-/
import proofs.«149995_j90778428768349_2_alg».proof.Proof.KernelIdealTable
import proofs.«149995_j90778428768349_2_alg».proof.Proof.PayPooled

set_option maxRecDepth 16384
set_option maxHeartbeats 4000000

noncomputable section

namespace Cert.KernelIdeal.Fr

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The image as launched (one device). -/
abbrev imgOf : Cert.RoiMax.Img := m (0, Proc.devRef .tc main_arg0)

/-- The 256 × 512 result: entry (r, d) is the pooled value of ROI r in channel d. -/
def pooled2 : S256x512.Idx → EReal := fun i => Cert.RoiMax.pooled (imgOf m) (roisOf m) (ix5 0 (i 0) 0 0 (i 1))

theorem hz4 : (![0, 0, 0, 0] : Fin 4 → Nat) = fun _ => 0 := funext fun a => by fin_cases a <;> rfl

/-- The printed index maps over the grid: the image's block never moves; the result's block is row-block t. -/
theorem idx_facts : ∀ t : Fin grid0.N, (∀ a : Fin 4, cc0_transform_0 (grid0.coords t) a = 0)
    ∧ cc0_transform_1 (grid0.coords t) (0 : Fin 2) = t.val ∧ cc0_transform_1 (grid0.coords t) (1 : Fin 2) = 0
    ∧ (grid0.coords t 0).val = t.val := by decide +kernel

/-- The image window's block at any point is the image as launched. -/
theorem iblk_img (t : Fin (cfgM m).N) : iblk m 0 0 t = imgOf m := by
  funext y
  unfold iblk
  show V m 0 main_arg0 ((((cfgM m).win 0).blk t).view.emb y) = _
  rw [V_main_arg0]
  refine congrArg (m (0, Proc.devRef .tc main_arg0)) ?_
  funext a
  apply Fin.ext
  have h := (idx_facts t).1 a
  show cc0_transform_0 (grid0.coords t) a * S1x38x38x512.size a + 1 * (y a).val = (y a).val
  rw [h]; omega

/-- A load of the whole block from a whole staging memref returns what the memref holds. -/
theorem imgLoaded_eq (arg2 : Memref sig .tc .vmem S1x38x38x512 .f32) (harg2 : arg2.IsWhole) (x0 : Vec Ideal S1x38x38x512 .f32) :
    imgLoaded arg2 harg2 x0 = x0 := by
  show View.readAt (Elt Ideal) arg2.view (Rect.unit (s := S1x38x38x512) ![0, 0, 0, 0] S1x38x38x512.size inb_S1x38x38x512_S1x38x38x512_0_0_0_0).toLoadRect (harg2.unread x0) = _
  rw [View.readAt_eq_ld, harg2.read_unread, View.ld_unit_zero (S := S1x38x38x512) hz4]

/-- So the image the body loads at any point is the image as launched. -/
theorem img_at (t : Fin (cfgM m).N) : imgLoaded (ms0_0 m t) (hs0_0 m t) (iblk m 0 0 t) = imgOf m :=
  (imgLoaded_eq (ms0_0 m t) (hs0_0 m t) (iblk m 0 0 t)).trans (iblk_img m t)

/-- What point t writes back is block t of the pooled array. -/
theorem flushed_eq (c : Dev nD) (t : Fin (cfgM m).N) :
    (dats m 0 c).flushed 1 t = (((cfgM m).win 1).blk t).view.read (Elt Ideal) (pooled2 m) := by
  obtain rfl : c = 0 := Subsingleton.elim _ _
  show ((cfgM m).win 1).cut (grid0.coords t) ((dats m 0 0).after 1 t) = _
  rw [after0_1]
  refine funext fun (j : S8x512.Idx) => ?_
  show blockOf (F := Ideal) 0 (grid0.coords t) (imgLoaded (ms0_0 m t) (hs0_0 m t) (iblk m 0 0 t)) (tbl m 0) j
    = pooled2 m ((((cfgM m).win 1).blk t).view.emb j)
  unfold blockOf
  rw [rowPay_eq m, img_at m t]
  refine (Cert.KernelIdeal.RowValue.pay_pooled (imgOf m) (roisOf m) (roiOf (grid0.coords t) ⟨(j 0).val, row_lt j⟩) (j 1)).trans ?_
  obtain ⟨-, e0, e1, e2⟩ := idx_facts t
  have hemb : ((((cfgM m).win 1).blk t).view.emb j : S256x512.Idx) = ix2 (roiOf (grid0.coords t) ⟨(j 0).val, row_lt j⟩) (j 1) := by
    funext a
    apply Fin.ext
    match a with
    | ⟨0, _⟩ =>
      show cc0_transform_1 (grid0.coords t) (0 : Fin 2) * 8 + 1 * (j 0).val = 8 * (grid0.coords t 0).val + (j 0).val
      rw [e0, e2]; omega
    | ⟨1, _⟩ =>
      show cc0_transform_1 (grid0.coords t) (1 : Fin 2) * 512 + 1 * (j 1).val = (j 1).val
      rw [e1]; omega
  exact (congrArg (pooled2 m) hemb).symm

/-- Every index of the result lies in some point's block: row r is row r % 8 of block r / 8. -/
theorem cover (i : S256x512.Idx) : ∃ t : Fin (cfgM m).N, ((cfgM m).win 1).flush t = true ∧ i ∈ (((cfgM m).win 1).blk t).view.set := by
  have hi0 : (i 0).val < 256 := (i 0).isLt
  have hi1 : (i 1).val < 512 := (i 1).isLt
  have hN : grid0.N = 32 := N_0
  have ht : (i 0).val / 8 < grid0.N := by omega
  refine ⟨⟨(i 0).val / 8, ht⟩, flush0_1 m _, ?_⟩
  obtain ⟨-, e0, e1, -⟩ := idx_facts ⟨(i 0).val / 8, ht⟩
  have hemb : ((((cfgM m).win 1).blk ⟨(i 0).val / 8, ht⟩).view.emb (ix2 (⟨(i 0).val % 8, by omega⟩ : Fin 8) (i 1) : S8x512.Idx) : S256x512.Idx) = i := by
    funext a
    apply Fin.ext
    match a with
    | ⟨0, _⟩ =>
      show cc0_transform_1 (grid0.coords ⟨(i 0).val / 8, ht⟩) (0 : Fin 2) * 8 + 1 * ((i 0).val % 8) = (i 0).val
      rw [e0]; show (i 0).val / 8 * 8 + 1 * ((i 0).val % 8) = (i 0).val; omega
    | ⟨1, _⟩ =>
      show cc0_transform_1 (grid0.coords ⟨(i 0).val / 8, ht⟩) (1 : Fin 2) * 512 + 1 * (i 1).val = (i 1).val
      rw [e1]; omega
  exact Finset.mem_map.mpr ⟨_, Finset.mem_univ _, hemb⟩

/-- The result array after the region. -/
theorem final (c : Dev nD) : (dats m 0 c).arrAt 1 (cfgM m).N = pooled2 m :=
  (dats m 0 c).arrAt_eq_of_cover 1 (pooled2 m) (fun t _ => flushed_eq m c t) (cover m)

/-! ## The reshape after the region, and the run read -/

/-- The pooled array reshaped to [1, 256, 1, 1, 512] is the specification's pooled value: index (0, r, 0, 0, d) reads (r, d). -/
theorem res_eq : (shapeCast S1x256x1x1x512 (pooled2 m) shapeCasts_S256x512_S1x256x1x1x512 : S1x256x1x1x512.Idx → EReal)
    = Cert.RoiMax.pooled (imgOf m) (roisOf m) := by
  funext i
  obtain ⟨a, r, b, c, d, rfl⟩ : ∃ (a : Fin 1) (r : Fin 256) (b c : Fin 1) (d : Fin 512), i = ix5 a r b c d :=
    ⟨i 0, i 1, i 2, i 3, i 4, eq_ix5 i⟩
  obtain rfl : a = 0 := Subsingleton.elim _ _
  obtain rfl : b = 0 := Subsingleton.elim _ _
  obtain rfl : c = 0 := Subsingleton.elim _ _
  have hr : r.val < 256 := r.isLt
  have hd : d.val < 512 := d.isLt
  refine (shapeCast_apply (pooled2 m) shapeCasts_S256x512_S1x256x1x1x512 (ix5 0 r 0 0 d) (ix2 r d) ?_).trans ?_
  · rewrite [Shape.rowMajor_val_two, Shape.rowMajor_val_five]
    show r.val * 512 + d.val = (((0 * 256 + r.val) * 1 + 0) * 1 + 0) * 512 + d.val
    omega
  · rfl

/-- What the reshape after the region leaves in the result buffer. -/
theorem tail_eq (c : Dev nD) :
    Pipeline.afterTail pcfgs (fun _ => adm m) (dats m) 0 (V0 m) [hostOps1] c main_v28
      = shapeCast S1x256x1x1x512 (pooled2 m) shapeCasts_S256x512_S1x256x1x1x512 := by
  have h27 : Pipeline.withArrays (Pipeline.pin pcfgs (fun _ => adm m) 0).spec c (V0 m c)
      (fun w => (dats m 0 c).arrAt w (Pipeline.pin pcfgs (fun _ => adm m) 0).N) (Proc.devRef .tc main_v27) = pooled2 m :=
    (Pipeline.withArrays_arr (Pipeline.pin pcfgs (fun _ => adm m) 0).spec winFacts0.arr_inj c (V0 m c)
      (fun w => (dats m 0 c).arrAt w (Pipeline.pin pcfgs (fun _ => adm m) 0).N) 1).trans (final m c)
  unfold Pipeline.afterTail
  show StableHlo.after hostOps1 _ (Proc.devRef .tc main_v28) = _
  after_results
  rw [h27]
  rfl

/-- The run, read: the result buffer ends at the pooled values of the launched image and ROIs, the arguments unchanged. -/
theorem run : θ_run defs (onTc (τ := τ) (main (F := Ideal))) ⟨m, fun _ => 0, ρ⟩ fun r => ∀ c : Dev nD,
      r.2.mem ((c.tc : Thread nD τ).loc main_v28) = Cert.RoiMax.pooled (imgOf m) (roisOf m)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v28 (by decide : main_v28 ∈ Pipeline.restRefs sig spec0)).trans ((tail_eq m c).trans (res_eq m)),
       ((h c).1 0).trans (((dats m 0 c).arrAt_in 0 rfl _).trans ((A_eq m c 0).trans (V_main_arg0 m c))),
       ((h c).2 main_arg1 (by decide : main_arg1 ∈ Pipeline.restRefs sig spec0)).trans (W_main_arg1 m (dats m) c)⟩)
    (run_main m ρ)

end Cert.KernelIdeal.Fr

end
-- ==== Proof.RefPooled.lean ====
/-
  The reference program's result, at the ideal values, is the specification's pooled value.

  Two steps. First, the array the reference reduces — the image's entry where the ROI's row mask and column mask both
  hold, the most negative finite binary32 number elsewhere — is, at (r, h, w, d), the specification's contribution of
  cell (h, w) to ROI r in channel d: reading each operation at an index leaves the same comparisons of h against
  (y1, y2) and of w against (x1, x2), on the same words, and the same entry of the image. Second, the reduce over the
  two spatial axes is, at (r, d), the maximum from −∞ over the indices (r, h, w, d) of that array, so it has the upper
  bounds that determine the pooled value; the final reshape reads it at (r, d).
-/
import proofs.«149995_j90778428768349_2_alg».proof.Proof.Gen.ReferenceIdeal.Read
import proofs.«149995_j90778428768349_2_alg».proof.Proof.RoiMax
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The reference's masked array at (r, h, w, d) is the specification's contribution of cell (h, w) to ROI r in channel d. -/
theorem v54_cell (img : (⟨S1x38x38x512, .f32⟩ : BufTy).Contents (Elt Ideal)) (rois : (⟨S256x4, .f32⟩ : BufTy).Contents (Elt Ideal))
    (r : Fin 256) (h w : Fin 38) (d : Fin 512) :
    val_main_v54 (F := Ideal) img rois (ix4 r h w d) = Cert.RoiMax.cell img rois r h w d := by
  have hh : h.val < 38 := h.isLt
  have hw : w.val < 38 := w.isLt
  have hd : d.val < 512 := d.isLt
  have ey1 : idx_main_v2 (idx_main_v3 (idx_main_v25 (idx_main_v27 (idx_main_v46 (idx_main_v48 (idx_main_v51
      (idx_main_call0_v0 (ix4 r h w d)))))))) = ix2 r 1 :=
    funext fun a => Fin.ext (by match a with | ⟨0, _⟩ => exact Nat.div_one _ | ⟨1, _⟩ => rfl)
  have eh : idx_main_v6 (idx_main_v7 (idx_main_v30 (idx_main_v32 (idx_main_v46 (idx_main_v48 (idx_main_v51
      (idx_main_call0_v0 (ix4 r h w d)))))))) = ix2 r 3 :=
    funext fun a => Fin.ext (by match a with | ⟨0, _⟩ => exact Nat.div_one _ | ⟨1, _⟩ => rfl)
  have ex1 : idx_main_v0 (idx_main_v1 (idx_main_v36 (idx_main_v38 (idx_main_v47 (idx_main_v49 (idx_main_v51
      (idx_main_call0_v0 (ix4 r h w d)))))))) = ix2 r 0 :=
    funext fun a => Fin.ext (by match a with | ⟨0, _⟩ => exact Nat.div_one _ | ⟨1, _⟩ => rfl)
  have ew : idx_main_v4 (idx_main_v5 (idx_main_v41 (idx_main_v43 (idx_main_v47 (idx_main_v49 (idx_main_v51
      (idx_main_call0_v0 (ix4 r h w d)))))))) = ix2 r 2 :=
    funext fun a => Fin.ext (by match a with | ⟨0, _⟩ => exact Nat.div_one _ | ⟨1, _⟩ => rfl)
  have eimg : idx_main_v52 (idx_main_v53 (idx_main_call0_v1 (ix4 r h w d))) = ix4 0 h w d :=
    funext fun a => Fin.ext (by
      match a with
      | ⟨0, _⟩ => rfl
      | ⟨1, _⟩ => show ((h.val * 38 + w.val) * 512 + d.val) / 19456 % 38 = h.val; omega
      | ⟨2, _⟩ => show ((h.val * 38 + w.val) * 512 + d.val) / 512 % 38 = w.val; omega
      | ⟨3, _⟩ => show ((h.val * 38 + w.val) * 512 + d.val) % 512 = d.val; omega)
  simp only [val_main_v54_apply, val_main_call0_v0_apply, val_main_call0_v1_apply, val_main_call0_v2_apply,
    val_main_cst_apply, val_main_v53_apply, val_main_v52_apply, val_main_v51_apply, val_main_v50_apply,
    val_main_v49_apply, val_main_v48_apply, val_main_v47_apply, val_main_v46_apply, val_main_v45_apply,
    val_main_v44_apply, val_main_v43_apply, val_main_v42_apply, val_main_v41_apply, val_main_v40_apply,
    val_main_v39_apply, val_main_v38_apply, val_main_v37_apply, val_main_v36_apply, val_main_v35_apply,
    val_main_v34_apply, val_main_v33_apply, val_main_v32_apply, val_main_v31_apply, val_main_v30_apply,
    val_main_v29_apply, val_main_v28_apply, val_main_v27_apply, val_main_v26_apply, val_main_v25_apply,
    val_main_v24_apply, val_main_v23_apply, val_main_v22_apply, val_main_v21_apply, val_main_v20_apply,
    val_main_v19_apply, val_main_v18_apply, val_main_v17_apply, val_main_v16_apply, val_main_v15_apply,
    val_main_v14_apply, val_main_v13_apply, val_main_v12_apply, val_main_v11_apply, val_main_v10_apply,
    val_main_v9_apply, val_main_v8_apply, val_main_v7_apply, val_main_v6_apply, val_main_v5_apply,
    val_main_v4_apply, val_main_v3_apply, val_main_v2_apply, val_main_v1_apply, val_main_v0_apply,
    val_main_c_apply, val_main_c_0_apply, val_main_c_1_apply, val_main_c_2_apply]
  rw [ey1, eh, ex1, ew, eimg]
  rfl

/-- The reference's result is the specification's pooled value: its reduce over the two spatial axes is the maximum,
    from −∞, of the masked array over the cells (h, w) of row r and channel d, and a maximum is determined by its
    upper bounds. -/
theorem ref_pooled (img : (⟨S1x38x38x512, .f32⟩ : BufTy).Contents (Elt Ideal)) (rois : (⟨S256x4, .f32⟩ : BufTy).Contents (Elt Ideal)) :
    val_main_v56 (F := Ideal) img rois = Cert.RoiMax.pooled img rois := by
  funext i
  obtain ⟨a, r, b, c, d, rfl⟩ : ∃ (a : Fin 1) (r : Fin 256) (b c : Fin 1) (d : Fin 512), i = ix5 a r b c d :=
    ⟨i 0, i 1, i 2, i 3, i 4, eq_ix5 i⟩
  have ha : a.val < 1 := a.isLt
  have hr : r.val < 256 := r.isLt
  have hb : b.val < 1 := b.isLt
  have hc : c.val < 1 := c.isLt
  have hd : d.val < 512 := d.isLt
  rw [Cert.RoiMax.eq_pooled_iff]
  intro z
  show _ ↔ (_ ∧ ∀ (h w : Fin 38), Cert.RoiMax.cell img rois r h w d ≤ z)
  rw [val_main_v56_apply]
  unfold val_main_v55
  rw [Host.reduce_eq_fold]
  show Finset.fold (max : EReal → EReal → EReal) _ _ _ ≤ z ↔ _
  rw [Finset.fold_max_le]
  refine and_congr Iff.rfl ?_
  have e0 : ((idx_main_v56 (ix5 a r b c d)) 0).val = r.val := by
    show (((((a.val * 256 + r.val) * 1 + b.val) * 1 + c.val) * 512 + d.val) / 512) = r.val
    omega
  have e1 : ((idx_main_v56 (ix5 a r b c d)) 1).val = d.val := by
    show (((((a.val * 256 + r.val) * 1 + b.val) * 1 + c.val) * 512 + d.val) % 512) = d.val
    omega
  constructor
  · intro H h w
    refine le_of_eq_of_le (v54_cell img rois r h w d).symm (H _ (Finset.mem_filter.2 ⟨Finset.mem_univ _, ?_⟩))
    funext k
    refine Fin.ext ?_
    match k with
    | ⟨0, _⟩ =>
      exact (reducesTo_S256x38x38x512_S256x512_d1_2.drop_apply_val_of_eq (ix4 r h w d) 0 0).trans e0.symm
    | ⟨1, _⟩ =>
      exact (reducesTo_S256x38x38x512_S256x512_d1_2.drop_apply_val_of_eq (ix4 r h w d) 1 3).trans e1.symm
  · intro H x hx
    have hx2 := (Finset.mem_filter.1 hx).2
    have x0 : (x 0).val = r.val :=
      (reducesTo_S256x38x38x512_S256x512_d1_2.drop_apply_val_of_eq x 0 0).symm.trans
        ((congrArg (fun j : S256x512.Idx => (j 0).val) hx2).trans e0)
    have x3 : (x 3).val = d.val :=
      (reducesTo_S256x38x38x512_S256x512_d1_2.drop_apply_val_of_eq x 1 3).symm.trans
        ((congrArg (fun j : S256x512.Idx => (j 1).val) hx2).trans e1)
    have ex : x = (ix4 r (x 1) (x 2) d : S256x38x38x512.Idx) :=
      funext fun k => Fin.ext (by
        match k with
        | ⟨0, _⟩ => exact x0
        | ⟨1, _⟩ => rfl
        | ⟨2, _⟩ => rfl
        | ⟨3, _⟩ => exact x3)
    rw [ex]
    exact le_of_eq_of_le (v54_cell img rois r (x 1) (x 2) d) (H _ _)

end Cert.ReferenceIdeal.RefValue

end
-- ==== Proof.lean ====
/-
  ROI max pooling with a 1 × 1 output bin: a kernel that pools eight ROIs per grid point against the plain array
  program, over a 38 × 38 × 512 feature map and 256 ROIs.

  Both programs clamp each ROI (x, y, w, h) to a box of cells, x1 = max(0, ⌊x⌋) ≤ col < x2 = min(38, ⌊x + w⌋) and
  y1 ≤ row < y2 likewise, replace the image outside the box by the most negative finite binary32 number, and take the
  maximum over all 38 · 38 cells, from −∞, per ROI and channel (Proof/RoiMax.lean: `pooled`).  The kernel takes the
  maximum over the columns and then over the rows; the reference over both axes at once; a maximum is determined by its
  upper bounds, so both are `pooled` (Proof/PayPooled.lean, Proof/RefPooled.lean).  The kernel reads the corners from a
  table the host prefetches into scalar memory — the four corner vectors side by side (Proof/KernelIdealTable.lean) —
  inside a counted loop of eight trips, one output row per trip (Proof/KernelIdealBody.lean, Proof/KernelBody.lean: the
  body's triple and the frame at the ideal and at the word-level instance, over Proof/KernelIdealKit.lean,
  Proof/KernelKit.lean); grid point t writes back rows 8·t … 8·t + 7 of the result, and the 32 blocks tile it
  (Proof/KernelIdealValue.lean).  No law used needs the inputs to be finite: the precondition is never opened.
-/
import proofs.«149995_j90778428768349_2_alg».proof.Defs
import proofs.«149995_j90778428768349_2_alg».proof.Proof.Gen.Kernel
import proofs.«149995_j90778428768349_2_alg».proof.Proof.Gen.KernelIdeal
import proofs.«149995_j90778428768349_2_alg».proof.Proof.Gen.ReferenceIdeal
import proofs.«149995_j90778428768349_2_alg».proof.Proof.Gen.Pre_finite_inputs
import proofs.«149995_j90778428768349_2_alg».proof.Proof.Gen.ReferenceIdeal.Read
import proofs.«149995_j90778428768349_2_alg».proof.Proof.KernelBody
import proofs.«149995_j90778428768349_2_alg».proof.Proof.KernelIdealValue
import proofs.«149995_j90778428768349_2_alg».proof.Proof.RefPooled
import Idealize.ShloMosaic.Adequacy
import Idealize.ShloMosaic.Init

noncomputable section

namespace Cert.Proof

open Idealize.ShloMosaic Idealize.SL.Sem

/-- The kernel at the word level runs to the end, faults nowhere and keeps its arguments. -/
theorem frame_k : Cert.frame_Kernel := fun m ρ _ => Cert.Kernel.Fr.frame m ρ
/-- So does its idealization. -/
theorem frame_ki : Cert.frame_KernelIdeal := fun m ρ _ => Cert.KernelIdeal.Fr.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- At the ideal values both programs end at the pooled values of the image and the ROIs they were launched with. -/
theorem algebraic : Cert.algebraic_KernelIdeal_ReferenceIdeal := by
  intro m ρ m' ρ' _ hagree
  refine ⟨fun _ => Cert.RoiMax.pooled (Cert.KernelIdeal.Fr.imgOf m) (Cert.KernelIdeal.Fr.roisOf m), Cert.KernelIdeal.Fr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.RefValue.ref_pooled, (hagree c).1, (hagree c).2]
  obtain rfl : c = 0 := Subsingleton.elim _ _
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
